-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200x128 : Shape := ⟨3, ![1024, 200, 128]⟩
abbrev S1024 : Shape := ⟨1, ![1024]⟩
abbrev S_ : Shape := ⟨0, ![]⟩

class Facts : Prop where
  bcast_S_S1024x200x128 : S_.BroadcastsInDim S1024x200x128 (![] : Fin 0 → Fin S1024x200x128.rank)
  reducesTo_S1024x200x128_S_d0_1_2 : S1024x200x128.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x200x128 .f32) (main_arg1 : IVec S1024 32) : IVec S_ 1 :=
  let main_v0 : FVec F S1024x200x128 .f32 := Host.absf main_arg0
  let main_cst : FVec F S_ .f32 := constant S_ .f32 0x7F800000#32
  let main_v1 : FVec F S1024x200x128 .f32 := broadcastInDim S1024x200x128 ![] bcast_S_S1024x200x128 main_cst
  let main_v2 : IVec S1024x200x128 1 := cmpf .olt main_v0 main_v1
  let main_c : IVec S_ 1 := constantI S_ 1 1#1
  let main_v3 : IVec S_ 1 := (fun x v => Host.reduce IntOp.andi x v reducesTo_S1024x200x128_S_d0_1_2 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 199#32
  let main_v6 : IVec S1024 32 := broadcastInDim S1024 ![] bcast_S_S1024 main_c_1
  let main_v7 : IVec S1024 1 := cmpi .sle main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024x200x128 : Shape := ⟨3, ![1024, 200, 128]⟩
abbrev S1024 : Shape := ⟨1, ![1024]⟩
abbrev S204800x128 : Shape := ⟨2, ![204800, 128]⟩
abbrev S1024x128 : Shape := ⟨2, ![1024, 128]⟩
abbrev S64 : Shape := ⟨1, ![64]⟩
abbrev S64x128 : Shape := ⟨2, ![64, 128]⟩
abbrev S_ : Shape := ⟨0, ![]⟩
abbrev S16 : Shape := ⟨1, ![16]⟩

abbrev nBuf : Table → Nat
  | .hbm => 4
  | .local .scVector .vmem => 2
  | _ => 0

abbrev bufTy : (tb : Table) → Fin (nBuf tb) → BufTy
  | .hbm, ⟨0, _⟩ => ⟨S1024x200x128, .f32⟩
  | .hbm, ⟨1, _⟩ => ⟨S1024, .i32⟩
  | .hbm, ⟨2, _⟩ => ⟨S204800x128, .f32⟩
  | .hbm, ⟨3, _⟩ => ⟨S1024x128, .f32⟩
  | .local .scVector .vmem, ⟨0, _⟩ => ⟨S64, .i32⟩
  | .local .scVector .vmem, ⟨1, _⟩ => ⟨S64x128, .f32⟩
  | _, _ => ⟨S1024x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_11_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200x128_S204800x128 : S1024x200x128.ShapeCasts S204800x128
  iota_S16_d0_w32_scVector : S16.Iotas .scVector 32 [0]
  inb_S64_S16_0 : ∀ a, (![0] : Fin 1 → Nat) a + S16.size a ≤ S64.size a
  h_S16 : 0 < S16.numel
  shapeCasts_S16_S16 : S16.ShapeCasts S16
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  inb_S204800x128_S204800x128_0_0 : ∀ a, (![0, 0] : Fin 2 → Nat) a + S204800x128.size a ≤ S204800x128.size a
  gathers_S204800x128_S64x128 : S204800x128.Gathers 0 S64x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S1024.size a
  k0_off2_inb : ∀ i : grid0.Coords, ∀ a, (k0_off2 i) a + S64x128.size a ≤ S1024x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S1024x200x128 : Shape := ⟨3, ![1024, 200, 128]⟩
abbrev S1024 : Shape := ⟨1, ![1024]⟩
abbrev S1024x1x1 : Shape := ⟨3, ![1024, 1, 1]⟩
abbrev S_ : Shape := ⟨0, ![]⟩
abbrev S1 : Shape := ⟨1, ![1]⟩
abbrev S1x1x1 : Shape := ⟨3, ![1, 1, 1]⟩
abbrev S1024x1 : Shape := ⟨2, ![1024, 1]⟩
abbrev S1024x1x128 : Shape := ⟨3, ![1024, 1, 128]⟩
abbrev S1024x128 : Shape := ⟨2, ![1024, 128]⟩

abbrev nBuf : Space → Nat
  | .hbm => 26
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S1024, .i32⟩
  | .hbm, ⟨2, _⟩ => ⟨S1024x1x1, .i32⟩
  | .hbm, ⟨3, _⟩ => ⟨S_, .i32⟩
  | .hbm, ⟨4, _⟩ => ⟨S1024x1x1, .i32⟩
  | .hbm, ⟨5, _⟩ => ⟨S1024x1x1, .i1⟩
  | .hbm, ⟨6, _⟩ => ⟨S_, .i32⟩
  | .hbm, ⟨7, _⟩ => ⟨S1024x1x1, .i32⟩
  | .hbm, ⟨8, _⟩ => ⟨S1024x1x1, .i32⟩
  | .hbm, ⟨9, _⟩ => ⟨S1024x1x1, .i32⟩
  | .hbm, ⟨10, _⟩ => ⟨S1, .i32⟩
  | .hbm, ⟨11, _⟩ => ⟨S_, .i32⟩
  | .hbm, ⟨12, _⟩ => ⟨S1024x1x1, .i32⟩
  | .hbm, ⟨13, _⟩ => ⟨S1024x1x1, .i1⟩
  | .hbm, ⟨14, _⟩ => ⟨S1x1x1, .i32⟩
  | .hbm, ⟨15, _⟩ => ⟨S1024x1x1, .i32⟩
  | .hbm, ⟨16, _⟩ => ⟨S1024x1x1, .i1⟩
  | .hbm, ⟨17, _⟩ => ⟨S1024x1x1, .i1⟩
  | .hbm, ⟨18, _⟩ => ⟨S_, .i1⟩
  | .hbm, ⟨19, _⟩ => ⟨S1024x1, .i1⟩
  | .hbm, ⟨20, _⟩ => ⟨S1024x1x128, .f32⟩
  | .hbm, ⟨21, _⟩ => ⟨S1024x1x128, .i1⟩
  | .hbm, ⟨22, _⟩ => ⟨S_, .f32⟩
  | .hbm, ⟨23, _⟩ => ⟨S1024x1x128, .f32⟩
  | .hbm, ⟨24, _⟩ => ⟨S1024x1x128, .f32⟩
  | .hbm, ⟨25, _⟩ => ⟨S1024x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  shapeCasts_S1024_S1024x1x1 : S1024.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  h_S_ : 0 < S_.numel
  bcast_S1024x1_S1024x1x128_0_1 : S1024x1.BroadcastsInDim S1024x1x128 (![0, 1] : Fin 2 → Fin S1024x1x128.rank)
  bcast_S_S1024x1x128 : S_.BroadcastsInDim S1024x1x128 (![] : Fin 0 → Fin S1024x1x128.rank)
  shapeCasts_S1024x1x128_S1024x128 : S1024x1x128.ShapeCasts S1024x128
  gather_S1024x200x128_S1024x1x1_S1024x1x128_2_1_0_0_1_2_11128_wf : GatherDims.WF S1024x200x128 S1024x1x1 S1024x1x128 [2] [1] [0] [1] [0] 2 ![1, 1, 128]

variable [Facts₀]

def gather_S1024x200x128_S1024x1x1_S1024x1x128_2_1_0_0_1_2_11128 : GatherDims S1024x200x128 S1024x1x1 S1024x1x128 where
  offsetDims := [2]
  collapsedSliceDims := [1]
  operandBatchingDims := [0]
  startIndicesBatchingDims := [0]
  startIndexMap := [1]
  indexVectorDim := 2
  sliceSizes := ![1, 1, 128]
  wf := gather_S1024x200x128_S1024x1x1_S1024x1x128_2_1_0_0_1_2_11128_wf

class Facts : Prop extends Facts₀ where

variable [Facts]
-- ==== Proof.IdealBase.lean ====
/-
  The gather kernel's task on one vector subcore, at a symbolic subcore.  Subcore `s` of SparseCore 0 owns rows
  `64 s … 64 s + 63` of the result.  It copies its 64 words of the index array into its list scratch, replaces word
  `k` of the list by `(64 s + k) · 200 + idx[64 s + k]` (four stores of sixteen lanes), gathers the rows of the flat
  table `[204800, 128]` the list names into its row scratch, and copies the row scratch out to its 64 rows of the
  result.  With `0 ≤ idx < 200` every list word is a row of the table, and row `b` of the result ends as row
  `200 b + idx[b]` of the table.
-/
import proofs.«215446_g14035953123405_cont_week2b_892_3_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«215446_g14035953123405_cont_week2b_892_3_alg».proof.Proof.Gen.KernelIdeal
import proofs.«215446_g14035953123405_cont_week2b_892_3_alg».proof.Proof.Gen.KernelIdeal.Skeleton

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The argument array `[1024, 200, 128]`, the index array `[1024]`, the flat table `[204800, 128]` and the result
    `[1024, 128]`. -/
abbrev aLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "iV" => (Memref.whole Cert.KernelIdeal.main_arg1_scv : Memref Cert.KernelIdeal.sig Kind.scVector Space.hbm Cert.KernelIdeal.S1024 EltTy.i32)
local notation "tV" => (Memref.whole Cert.KernelIdeal.main_v0_scv : Memref Cert.KernelIdeal.sig Kind.scVector Space.hbm Cert.KernelIdeal.S204800x128 EltTy.f32)
local notation "oV" => (Memref.whole Cert.KernelIdeal.main_v1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

/-- Sixteen subcores, sixty-four rows each. -/
theorem idiv : 16 ∣ S1024.size 0 := ⟨64, rfl⟩
theorem odiv : 16 ∣ S1024x128.size 0 := ⟨64, rfl⟩
abbrev irow (i : Fin 16) : Rect S1024 := Rect.part (s := S1024) (a₀ := 0) idiv i
abbrev orow (i : Fin 16) : Rect S1024x128 := Rect.part (s := S1024x128) (a₀ := 0) odiv i
abbrev iRowSet (i : Fin 16) : Finset S1024.Idx := ((iV).view.slice (irow i)).set
abbrev oRowSet (i : Fin 16) : Finset S1024x128.Idx := ((oV).view.slice (orow i)).set

/-- Subcore `i`'s read share of the table: the full share cut into sixteen. -/
abbrev tq (i : Fin 16) : PosShare TreeShare := pieceOf fullShare 16 (by decide) i

/-! ## What the result holds -/

/-- The table the host reshape leaves: the argument array read row-major as `[204800, 128]`. -/
def TAB [FloatOps F] (d : Dev nD) : Buf (Elt F) (tLoc d) :=
  shapeCast S204800x128 (m (aLoc d)) shapeCasts_S1024x200x128_S204800x128

/-- An index of the index array, and an index of the table, from their coordinates. -/
abbrev i1 (b : Fin 1024) : S1024.Idx := fun a => match a with | ⟨0, _⟩ => b
abbrev t2 (r : Fin 204800) (c : Fin 128) : S204800x128.Idx := fun a => match a with | ⟨0, _⟩ => r | ⟨1, _⟩ => c

/-- The table row the result's row `b` is picked from: `200 b + idx[b]` (the index word taken below 200). -/
def pickRow (idx : S1024.Idx → BitVec 32) (b : Fin 1024) : Fin 204800 :=
  ⟨b.val * 200 + (idx (i1 b)).toNat % 200, by
    have h0 : b.val < 1024 := b.isLt
    have h1 := Nat.mod_lt (idx (i1 b)).toNat (show 0 < 200 by decide)
    omega⟩

/-- Row `200 b + idx[b]` of a table, for each row `b` of the result. -/
def pick {E : Type} (tab : S204800x128.Idx → E) (idx : S1024.Idx → BitVec 32) : S1024x128.Idx → E := fun j =>
  tab (t2 (pickRow idx (j 0)) (j 1))

/-- The result array: the picked rows of the reshaped table. -/
def GOUT [FloatOps F] (d : Dev nD) : Buf (Elt F) (oLoc d) := pick (TAB m d) (m (iLoc d))

variable [FloatOps F]

/-! ## What the handshakes carry -/

abbrev iPts (d : Dev nD) : sProp 𝕄 := iLoc d ↦{fullShare} m (iLoc d)
abbrev tPts (d : Dev nD) : sProp 𝕄 := tLoc d ↦{fullShare} TAB m d
abbrev oPts (d : Dev nD) (f : Buf (Elt F) (oLoc d)) : sProp 𝕄 := oLoc d ↦{fullShare} f
abbrev iRowPts (d : Dev nD) (i : Fin 16) : sProp 𝕄 := iLoc d ↦[iRowSet i]{fullShare} m (iLoc d)
abbrev tShPts (d : Dev nD) (i : Fin 16) : sProp 𝕄 := tLoc d ↦{tq i} TAB m d
abbrev oRowPts (d : Dev nD) (i : Fin 16) (f : Buf (Elt F) (oLoc d)) : sProp 𝕄 := oLoc d ↦[oRowSet i]{fullShare} f

/-- The call takes the index array, the table and the result whole; each subcore its sixty-four index words, its
    share of the table and its sixty-four rows of the result, which it brings back holding the picked rows. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (GOUT m d))
  go := fun q d _ i => match q with
    | 0 => iprop(iRowPts m d (Fin.cast nSub_zero i) ∗ tShPts m d (Fin.cast nSub_zero i) ∗ oRowPts d (Fin.cast nSub_zero i) (m (oLoc d)))
  td := fun q d _ i => match q with
    | 0 => iprop(iRowPts m d (Fin.cast nSub_zero i) ∗ tShPts m d (Fin.cast nSub_zero i) ∗ oRowPts d (Fin.cast nSub_zero i) (GOUT m d))
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (GOUT m d)))
  go q d _ i := match q with
    | 0 => (inferInstance : BI.Storable (upEmb : UEmb _ 𝕄)
      iprop(iRowPts m d (Fin.cast nSub_zero i) ∗ tShPts m d (Fin.cast nSub_zero i) ∗ oRowPts d (Fin.cast nSub_zero i) (m (oLoc d))))
  td q d _ i := match q with
    | 0 => (inferInstance : BI.Storable (upEmb : UEmb _ 𝕄)
      iprop(iRowPts m d (Fin.cast nSub_zero i) ∗ tShPts m d (Fin.cast nSub_zero i) ∗ oRowPts d (Fin.cast nSub_zero i) (GOUT m d)))

/-- What the proof asks of the launch memory: every index word is below 200. -/
def PreOK : Prop := ∀ (d : Dev nD) (j : S1024.Idx), (m (iLoc d) j).toNat < 200

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev irowK (L : grid0.Coords) : Rect S1024 := Rect.unit (s := S1024) (k0_off1 L) S64.size (k0_off1_inb L)
abbrev orowK (L : grid0.Coords) : Rect S1024x128 := Rect.unit (s := S1024x128) (k0_off2 L) S64x128.size (k0_off2_inb L)
/-- The subcore's sixty-four index words, its sixty-four rows of the result, and all of the table, as the task
    addresses them. -/
abbrev iRowK (L : grid0.Coords) : Memref sig .scVector .hbm S64 .i32 := (iV).slice (irowK L) (fun _ => rfl)
abbrev oRowK (L : grid0.Coords) : Memref sig .scVector .hbm S64x128 .f32 := (oV).slice (orowK L) (fun _ => rfl)
abbrev tAllK : Memref sig .scVector .hbm S204800x128 .f32 := (tV).slice (Rect.unit (s := S204800x128) ![0, 0] S204800x128.size inb_S204800x128_S204800x128_0_0) (fun _ => rfl)

omit [FloatOps F] in
theorem L0_zero : (L 0).val = 0 := by have := (L 0).isLt; change (L 0).val < 1 at this; omega

omit [FloatOps F] in
theorem irowK_eq : irowK L = irow (jL L) := by
  unfold irowK irow Rect.part Rect.block
  congr 1 <;> funext a
  · rw [k0_off1_eq]
    match a with
    | 0 => simp [Shape.partIx, Shape.partSize, L0_zero L]; try omega
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, L0_zero L]; try omega
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  exact irowK_eq L ▸ rfl
omit [FloatOps F] in
theorem set_oRowK : (oRowK L).view.set = oRowSet (jL L) := by
  show ((oV).view.slice (orowK L)).set = ((oV).view.slice (orow (jL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three DMA semaphores of a vector subcore: the index copy's, the gather's, the copy-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.IdealTile

end
-- ==== Proof.IdealList.lean ====
/-
  The offset list a subcore builds, in closed form.  After the index copy the list scratch holds the subcore's
  sixty-four index words; each of the four sixteen-lane stores replaces lane `y` of chunk `k` by
  `(64 s + 16 k + y) · 200` plus the word it read there.  No product or sum wraps (all are below `204800`), so word `x`
  of the finished list is the number `(64 s + x) · 200 + idx[64 s + x]`: a row of the table, and the row the result's row
  `64 s + x` is picked from.
-/
import proofs.«215446_g14035953123405_cont_week2b_892_3_alg».proof.Proof.IdealBase
import Idealize.ShloMosaic.Lib.Writes
import Idealize.ShloMosaic.Lib.Pipeline.Value

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S1024 EltTy.i32)
local notation "tV" => (Memref.whole Cert.KernelIdeal.main_v0_scv : Memref Cert.KernelIdeal.sig Kind.scVector Space.hbm Cert.KernelIdeal.S204800x128 EltTy.f32)
local notation "oV" => (Memref.whole Cert.KernelIdeal.main_v1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

variable (m : (ℓ : Loc nD τ sig) → Buf (Elt F) ℓ) [FloatOps F] (d : Dev nD) (L : grid0.Coords)

/-- The four sixteen-lane chunks of the list. -/
abbrev lr0 : Rect S64 := Rect.unit (s := S64) ![0] S16.size inb_S64_S16_0
abbrev lr16 : Rect S64 := Rect.unit (s := S64) ![16] S16.size inb_S64_S16_16
abbrev lr32 : Rect S64 := Rect.unit (s := S64) ![32] S16.size inb_S64_S16_32
abbrev lr48 : Rect S64 := Rect.unit (s := S64) ![48] S16.size inb_S64_S16_48

/-- Word `x` of the subcore's sixty-four index words. -/
def idxWord (x : S64.Idx) : BitVec 32 := m (iLoc d) ((iRowK L).view.emb x)

/-- Word `x` of the finished list. -/
def listWord (x : S64.Idx) : BitVec 32 :=
  BitVec.ofNat 32 ((64 * (L 1).val + (x 0).val) * 200 + (idxWord m d L x).toNat)

omit [FloatOps F] in
theorem L1_lt : (L 1).val < 16 := (L 1).isLt

omit [FloatOps F] in
theorem idxWord_lt (hpre : PreOK m) (x : S64.Idx) : (idxWord m d L x).toNat < 200 := hpre d _

omit [FloatOps F] in
/-- The finished list's word as a number. -/
theorem listWord_toNat (hpre : PreOK m) (x : S64.Idx) :
    (listWord m d L x).toNat = (64 * (L 1).val + (x 0).val) * 200 + (idxWord m d L x).toNat := by
  have h1 := L1_lt L
  have h2 : (x 0).val < 64 := (x 0).isLt
  have h3 := idxWord_lt m d L hpre x
  unfold listWord
  rw [BitVec.toNat_ofNat]
  omega

omit [FloatOps F] in
theorem listWord_inb (hpre : PreOK m) (x : S64.Idx) : (listWord m d L x).toNat < 204800 := by
  have h1 := L1_lt L
  have h2 : (x 0).val < 64 := (x 0).isLt
  have h3 := idxWord_lt m d L hpre x
  rw [listWord_toNat m d L hpre]; omega

/-- The subcore's first row, as the kernel computes it: `64 s`. -/
theorem base_toNat :
    (Scalar.muli (Scalar.addi (Scalar.muli (BitVec.ofNat 32 (L 1).val) 1#32) (BitVec.ofNat 32 (L 0).val)) 64#32).toNat = 64 * (L 1).val := by
  have h1 := L1_lt L
  have h0 := L0_zero L
  simp only [Scalar.muli, Scalar.addi, IntOp.muli, IntOp.addi, h0]
  bv_omega

/-- One store's lane: `(base + c + y) · 200 + w` as a number, when nothing wraps. -/
theorem lane_toNat (base c : BitVec 32) (y w : BitVec 32) (b cn yn : ℕ) (hb : base.toNat = b) (hc : c.toNat = cn) (hy : y.toNat = yn)
    (hbound : (b + cn + yn) * 200 + w.toNat < 2 ^ 32) :
    (((base + c) + y) * 200#32 + w).toNat = (b + cn + yn) * 200 + w.toNat := by
  subst hb hc hy
  bv_omega

/-- The subcore's first row as the kernel's scalar chain spells it. -/
abbrev baseW (L : grid0.Coords) : BitVec 32 :=
  Scalar.muli (Scalar.addi (Scalar.muli (BitVec.ofNat 32 (L 1).val) 1#32) (BitVec.ofNat 32 (L 0).val)) 64#32

/-- Each store's payload, lane by lane: the lane's row number times 200 plus the word loaded there. -/
theorem pay3_apply (v : Vec F S16 .i32) (y : S16.Idx) :
    k0_pay3 (F := F) L v y = ((baseW L + 0#32) + BitVec.ofNat 32 (y 0).val) * 200#32 + v y := by
  unfold k0_pay3
  simp only [shapeCast_self, addi, muli, broadcast, IntOp.addi, IntOp.muli, Scalar.addi]
  rw [iota_single_apply .scVector S16 32 0 _ y]
  try rfl
theorem pay4_apply (v : Vec F S16 .i32) (y : S16.Idx) :
    k0_pay4 (F := F) L v y = ((baseW L + 16#32) + BitVec.ofNat 32 (y 0).val) * 200#32 + v y := by
  unfold k0_pay4
  simp only [shapeCast_self, addi, muli, broadcast, IntOp.addi, IntOp.muli, Scalar.addi]
  rw [iota_single_apply .scVector S16 32 0 _ y]
  try rfl
theorem pay5_apply (v : Vec F S16 .i32) (y : S16.Idx) :
    k0_pay1 (k0_pay5 (F := F) L v) y = ((baseW L + 32#32) + BitVec.ofNat 32 (y 0).val) * 200#32 + v y := by
  unfold k0_pay1 k0_pay5
  simp only [shapeCast_self, addi, muli, broadcast, IntOp.addi, IntOp.muli, Scalar.addi]
  rw [iota_single_apply .scVector S16 32 0 _ y]
  try rfl
theorem pay2_apply (v2 : BitVec 32) (v : Vec F S16 .i32) (y : S16.Idx) :
    k0_pay2 (F := F) v2 v y = ((v2 + 48#32) + BitVec.ofNat 32 (y 0).val) * 200#32 + v y := by
  unfold k0_pay2
  simp only [shapeCast_self, addi, muli, broadcast, IntOp.addi, IntOp.muli, Scalar.addi]
  rw [iota_single_apply .scVector S16 32 0 _ y]
  try rfl

/-- A load of a chunk of the list scratch reads the contents at the chunk's lanes. -/
theorem load_apply (r : Rect S64) (g : (sV).view.ty.Contents (Elt F)) (y : r.shape.Idx) :
    View.readAt (Elt F) (sV).view r.toLoadRect g y = g (r.emb y) := rfl

omit [FloatOps F] in
/-- What the index copy lands in the list scratch: the subcore's index words. -/
theorem landed (fs : (sV).view.ty.Contents (Elt F)) (pay : S64.Idx → Elt F .i32)
    (hpay : pay = (iRowK L).view.read (Elt F) (m (iLoc d))) (x : S64.Idx) :
    View.write (Elt F) (sV).view fs pay Finset.univ x = idxWord m d L x := by
  subst hpay
  rw [View.write_whole_univ]
  exact (View.read_apply _ _).trans (cast_eq _ _)

/-- One lane of one store is the finished list's word there. -/
theorem lane_closed (hpre : PreOK m) (g : (sV).view.ty.Contents (Elt F)) (hg : ∀ x, g x = idxWord m d L x)
    (c : ℕ) (hc : c + 16 ≤ 64) (inb : ∀ a, (![c] : Fin 1 → ℕ) a + S16.size a ≤ S64.size a)
    (base : BitVec 32) (hb : base.toNat = 64 * (L 1).val) (y : S16.Idx) :
    ((base + BitVec.ofNat 32 c) + BitVec.ofNat 32 (y 0).val) * 200#32
        + View.readAt (Elt F) (sV).view (Rect.unit (s := S64) ![c] S16.size inb).toLoadRect g y
      = listWord m d L ((Rect.unit (s := S64) ![c] S16.size inb).emb y) := by
  apply BitVec.eq_of_toNat_eq
  have hy : (y 0).val < 16 := (y 0).isLt
  have h1 := L1_lt L
  have hrd : View.readAt (Elt F) (sV).view (Rect.unit (s := S64) ![c] S16.size inb).toLoadRect g y
      = idxWord m d L ((Rect.unit (s := S64) ![c] S16.size inb).emb y) := hg _
  have hw := idxWord_lt m d L hpre ((Rect.unit (s := S64) ![c] S16.size inb).emb y)
  have he : (((Rect.unit (s := S64) ![c] S16.size inb).emb y) 0).val = c + (y 0).val := by
    rw [Rect.emb_apply]; show c + 1 * (y 0).val = _; omega
  rw [hrd, listWord_toNat m d L hpre, he,
    lane_toNat base (BitVec.ofNat 32 c) (BitVec.ofNat 32 (y 0).val) _ (64 * (L 1).val) c (y 0).val hb
      (by rw [BitVec.toNat_ofNat]; omega) (by rw [BitVec.toNat_ofNat]; omega) (by omega)]
  omega

/-- The list after the four stores, whatever the scratch held before the index copy: word `x` is
    `(64 s + x) · 200 + idx[64 s + x]`. -/
theorem list_closed (hpre : PreOK m) (junk g : (sV).view.ty.Contents (Elt F)) (v2 : BitVec 32) (hv2 : v2.toNat = 64 * (L 1).val)
    (hg : ∀ x, g x = idxWord m d L x) (x : S64.Idx) :
    (sV).view.read (Elt F) ((sV).view.writes (Elt F) junk
      [⟨lr48, k0_pay2 (F := F) v2 (View.readAt (Elt F) (sV).view lr48.toLoadRect g)⟩,
       ⟨lr32, k0_pay1 (k0_pay5 (F := F) L (View.readAt (Elt F) (sV).view lr32.toLoadRect g))⟩,
       ⟨lr16, k0_pay4 (F := F) L (View.readAt (Elt F) (sV).view lr16.toLoadRect g)⟩,
       ⟨lr0, k0_pay3 (F := F) L (View.readAt (Elt F) (sV).view lr0.toLoadRect g)⟩]) x = listWord m d L x := by
  refine View.read_writes_apply_of_pieces (Val := Elt F) (sV).view junk (listWord m d L) _ ?_ x ?_
  swap
  · exact View.cover_of_tiled _ ![16] rfl x
  intro p hp
  simp only [List.mem_cons, List.not_mem_nil, or_false] at hp
  rcases hp with rfl | rfl | rfl | rfl <;> intro y
  · show k0_pay2 (F := F) v2 _ y = _
    rw [pay2_apply]
    exact lane_closed m d L hpre g hg 48 (by decide) inb_S64_S16_48 v2 hv2 y
  · show k0_pay1 (k0_pay5 (F := F) L _) y = _
    rw [pay5_apply]
    exact lane_closed m d L hpre g hg 32 (by decide) inb_S64_S16_32 (baseW L) (base_toNat L) y
  · show k0_pay4 (F := F) L _ y = _
    rw [pay4_apply]
    exact lane_closed m d L hpre g hg 16 (by decide) inb_S64_S16_16 (baseW L) (base_toNat L) y
  · show k0_pay3 (F := F) L _ y = _
    rw [pay3_apply]
    exact lane_closed m d L hpre g hg 0 (by decide) inb_S64_S16_0 (baseW L) (base_toNat L) y

end Cert.Proof.IdealTile

end
-- ==== Proof.IdealValue.lean ====
/-
  What a subcore's rows of the result hold at the end.  Row `z` of the row scratch is the table's row named by word `z` of
  the list, that is row `(64 s + z) · 200 + idx[64 s + z]`; the copy-out puts it at row `64 s + z` of the result; and the
  picked-rows function reads, at row `b = 64 s + z`, row `200 b + idx[b]` of the table: the same row.
-/
import proofs.«215446_g14035953123405_cont_week2b_892_3_alg».proof.Proof.IdealList

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S1024 EltTy.i32)
local notation "tV" => (Memref.whole Cert.KernelIdeal.main_v0_scv : Memref Cert.KernelIdeal.sig Kind.scVector Space.hbm Cert.KernelIdeal.S204800x128 EltTy.f32)
local notation "oV" => (Memref.whole Cert.KernelIdeal.main_v1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

variable (m : (ℓ : Loc nD τ sig) → Buf (Elt F) ℓ) [FloatOps F] (d : Dev nD) (L : grid0.Coords)

omit [FloatOps F] in
/-- The subcore's first index word and first result row are both row `64 s`. -/
theorem off1_zero : k0_off1 L 0 = 64 * (L 1).val := by
  have h := congrFun (k0_off1_eq L) 0
  have h0 := L0_zero L
  rw [h]; show 64 * (L 1).val + 64 * (L 0).val = _; omega
omit [FloatOps F] in
theorem off2_zero : k0_off2 L 0 = 64 * (L 1).val := by
  have h := congrFun (k0_off2_eq L) 0
  have h0 := L0_zero L
  rw [h]; show 64 * (L 1).val + 64 * (L 0).val = _; omega
omit [FloatOps F] in
theorem off2_one : k0_off2 L 1 = 0 := by
  have h := congrFun (k0_off2_eq L) 1
  rw [h]; rfl

omit [FloatOps F] in
/-- Index word `x` of the subcore is word `64 s + x` of the index array. -/
theorem iRow_emb (x : S64.Idx) (b : Fin 1024) (hb : b.val = 64 * (L 1).val + (x 0).val) : (iRowK L).view.emb x = i1 b := by
  funext a
  match a with
  | ⟨0, _⟩ =>
    apply Fin.ext
    show k0_off1 L 0 + 1 * (x 0).val = b.val
    rw [off1_zero, hb]; omega

/-- The table index the gather reads for element `z` of the row scratch is the one the picked-rows function reads for the
    element of the result the copy-out puts it at. -/
theorem src_idx (hpre : PreOK m) (fo : (sV).view.ty.Contents (Elt F))
    (hfo : ∀ x, (sV).view.read (Elt F) fo x = listWord m d L x)
    (hn : S64.numel = S64x128.size gathers_S204800x128_S64x128.axis')
    (hin : ∀ x, ((sV).view.read (Elt F) fo x).toNat < S204800x128.size gathers_S204800x128_S64x128.axis)
    (z : S64x128.Idx) :
    (tAllK).view.emb (gathers_S204800x128_S64x128.idx (SparseCore.rows ((sV).view.read (Elt F) fo) hn hin) z)
      = t2 (pickRow (m (iLoc d)) (((oRowK L).view.emb z) 0)) (((oRowK L).view.emb z) 1) := by
  have hz0 : (z 0).val < 64 := (z 0).isLt
  have h1 := L1_lt L
  -- the list entry for row `z 0`
  let x : S64.Idx := S64.rowMajor.symm ((z gathers_S204800x128_S64x128.axis').cast hn.symm)
  have hx : (x 0).val = (z 0).val := by
    have := Shape.rowMajor_val_one (d := ![64]) x
    rw [← this]
    show (S64.rowMajor (S64.rowMajor.symm _)).val = _
    rw [Equiv.apply_symm_apply]; rfl
  have hb : (((oRowK L).view.emb z) 0).val = 64 * (L 1).val + (z 0).val := by
    show k0_off2 L 0 + 1 * (z 0).val = _
    rw [off2_zero]; omega
  have hrow : (SparseCore.rows ((sV).view.read (Elt F) fo) hn hin (z gathers_S204800x128_S64x128.axis')).val
      = (64 * (L 1).val + (z 0).val) * 200 + (idxWord m d L x).toNat := by
    show ((sV).view.read (Elt F) fo x).toNat = _
    rw [hfo x, listWord_toNat m d L hpre x, hx]
  have hix : idxWord m d L x = m (iLoc d) (i1 (((oRowK L).view.emb z) 0)) := by
    unfold idxWord
    rw [iRow_emb L x (((oRowK L).view.emb z) 0) (by rw [hb, hx])]
  have hlt := idxWord_lt m d L hpre x
  funext a
  match a with
  | ⟨0, h⟩ =>
    apply Fin.ext
    show 0 + 1 * ((gathers_S204800x128_S64x128.idx (SparseCore.rows ((sV).view.read (Elt F) fo) hn hin) z) ⟨0, h⟩).val = (pickRow (m (iLoc d)) (((oRowK L).view.emb z) 0)).val
    have e := congrArg Fin.val (gathers_S204800x128_S64x128.idx_axis (SparseCore.rows ((sV).view.read (Elt F) fo) hn hin) z)
    have e' : ((gathers_S204800x128_S64x128.idx (SparseCore.rows ((sV).view.read (Elt F) fo) hn hin) z) ⟨0, h⟩).val
        = (SparseCore.rows ((sV).view.read (Elt F) fo) hn hin (z gathers_S204800x128_S64x128.axis')).val := e
    rw [e', hrow]
    show _ = (((oRowK L).view.emb z) 0).val * 200 + (m (iLoc d) (i1 (((oRowK L).view.emb z) 0))).toNat % 200
    rw [hb, ← hix, Nat.mod_eq_of_lt hlt]; omega
  | ⟨1, h⟩ =>
    apply Fin.ext
    show 0 + 1 * ((gathers_S204800x128_S64x128.idx (SparseCore.rows ((sV).view.read (Elt F) fo) hn hin) z) ⟨1, h⟩).val = (((oRowK L).view.emb z) 1).val
    rw [gathers_S204800x128_S64x128.idx_of_ne _ z ⟨1, h⟩ (by show (1 : ℕ) ≠ 0; decide)]
    show 0 + 1 * (z 1).val = k0_off2 L 1 + 1 * (z 1).val
    rw [off2_one]

/-- After the copy-out the subcore's rows of the result hold the picked rows. -/
theorem out_rows (hpre : PreOK m) (fo : (sV).view.ty.Contents (Elt F))
    (hfo : ∀ x, (sV).view.read (Elt F) fo x = listWord m d L x)
    (hn : S64.numel = S64x128.size gathers_S204800x128_S64x128.axis')
    (hin : ∀ x, ((sV).view.read (Elt F) fo x).toNat < S204800x128.size gathers_S204800x128_S64x128.axis)
    (fr : (rV).view.ty.Contents (Elt F)) (f0 : (oRowK L).view.ty.Contents (Elt F)) (pay : S64x128.Idx → Elt F .f32)
    (hpay : pay = (rV).view.read (Elt F) (View.write (Elt F) (rV).view fr
      (SparseCore.gatherPayload gathers_S204800x128_S64x128 (View.read (Elt F) (tAllK).view (TAB m d))
        (SparseCore.rows ((sV).view.read (Elt F) fo) hn hin)) Finset.univ)) :
    ∀ i ∈ (oRowK L).view.set, (oRowK L).view.writes (Elt F) f0 [⟨Rect.whole S64x128, pay⟩] i = GOUT m d i := by
  intro i hi
  obtain ⟨z, -, rfl⟩ := Finset.mem_map.mp hi
  have hw : (oRowK L).view.read (Elt F) ((oRowK L).view.writes (Elt F) f0 [⟨Rect.whole S64x128, pay⟩]) ((Rect.whole S64x128).emb z) = pay z :=
    View.read_writes_cons_emb _ _ _ _ _ _
  rw [Rect.emb_whole_apply] at hw
  have hw' : (oRowK L).view.writes (Elt F) f0 [⟨Rect.whole S64x128, pay⟩] ((oRowK L).view.emb z) = pay z :=
    ((View.read_apply _ _).trans (cast_eq _ _)).symm.trans hw
  rw [hw', hpay]
  show View.read (Elt F) (View.whole cc0_scratch1) (View.write (Elt F) (View.whole cc0_scratch1) fr _ Finset.univ) z = _
  rw [View.write_whole_univ, View.read_whole]
  unfold SparseCore.gatherPayload GOUT pick
  rw [View.read_apply]
  refine (cast_eq _ _).trans ?_
  exact congrArg (TAB m d) (src_idx m d L hpre fo hfo hn hin z)

end Cert.Proof.IdealTile

end
-- ==== Proof.IdealBody.lean ====
/-
  The task's run on a vector subcore: the index copy and its wait, the four loads and stores that finish the list, the
  gather of the listed table rows into the row scratch and its wait, and the copy of the row scratch out to the
  subcore's rows of the result and its wait.  The list's words are rows of the table by the precondition; what the
  rows of the result hold at the end is computed lane by lane from the list's closed form.
-/
import proofs.«215446_g14035953123405_cont_week2b_892_3_alg».proof.Proof.IdealValue

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S1024 EltTy.i32)
local notation "tV" => (Memref.whole Cert.KernelIdeal.main_v0_scv : Memref Cert.KernelIdeal.sig Kind.scVector Space.hbm Cert.KernelIdeal.S204800x128 EltTy.f32)
local notation "oV" => (Memref.whole Cert.KernelIdeal.main_v1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

variable (m : (ℓ : Loc nD τ sig) → Buf (Elt F) ℓ) [FloatOps F] (d : Dev nD) (L : grid0.Coords)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ tShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tV (Memref.isWhole_whole _) iV (Memref.isWhole_whole _) oV (Memref.isWhole_whole _)
            sV (Memref.isWhole_whole _) rV (Memref.isWhole_whole _) cc0_scratch2 cc0_scoped0 cc0_scoped1)
          fun _ => iprop((iRowPts m d (jL L) ∗ tShPts m d (jL L) ∗ oRowPts d (jL L) (GOUT m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  -- the finished list, in closed form
  have hlist : ∀ x, (sV).view.read (Elt F) ((sV).view.writes (Elt F) (sV).view.junk (tile_body.sl.Hs'_4 m d L fs)) x = listWord m d L x :=
    list_closed m d L hpre _ _ (tile_body.sl.v2 L) (base_toNat L) (landed m d L fs _ rfl)
  have hin : ∀ x, ((sV).view.read (Elt F) ((sV).view.writes (Elt F) (sV).view.junk (tile_body.sl.Hs'_4 m d L fs)) x).toNat
      < S204800x128.size gathers_S204800x128_S64x128.axis := fun x => by
    rw [hlist x]; exact listWord_inb m d L hpre x
  -- the gather: a share of the table, the row scratch, the list's buffer whole, the semaphore at zero
  ihave Hts := (pointsTo_split_subset (q := tq (jL L)) (f := TAB m d) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} (sV).view.writes (Elt F) (sV).view.junk (tile_body.sl.Hs'_4 m d L fs) : sProp 𝕄)
      = (sV).view.loc (V d (cV L) (jV L)) ↦[(sV).view.set]{fullShare} (sV).view.writes (Elt F) (sV).view.junk (tile_body.sl.Hs'_4 m d L fs)
      by rw [hss])) $$ Hs'
  have hN : ∀ h : S204800x128.Gathers 0 S64x128, ∑ j, ((rV).slice (S64x128.rowRect h.axis' j) (S64x128.stride_rowRect h.axis' j)).view.dmaCredit
      = (rV).view.dmaCredit := fun h => SparseCore.sum_rowCredit_eq_dmaCredit (rV) h.axis' (fun _ => rfl)
  iapply (SparseCore.wp_indirectGatherLocal countersEmb 𝒱₀ (V d (cV L) (jV L)) none (hg := gathers_S204800x128_S64x128) (default : HIx 1)
      (rV).view.dmaCredit (hN _) (by decide) hin) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemB, HO⟩
  ihave Ht' := (pointsTo_split_subset (q := tq (jL L)) (f := TAB m d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the subcore's rows of the result hold the picked rows
  ihave Ho2 := (Entails.of_eq (pointsTo_congr (ℓ := (oRowK L).view.loc (V d (cV L) (jV L))) (q := fullShare)
    (out_rows m d L hpre _ hlist _ hin fr (m (oLoc d)) (tile_body.sl.dma0_1 m d L fs fr hin) rfl))) $$ Ho'
  isplitl [Hi' Ht' Ho2]
  · isplitl [Hi']; · iapply (Entails.of_eq (pts_iRowK (F := F) d L _)); iexact Hi'
    isplitl [Ht']; · iexact Ht'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.IdealTile

end
-- ==== Proof.IdealLaunch.lean ====
/-
  The launch of the gather kernel.  The TensorCore reshapes the argument array into the flat table, starts SparseCore 0,
  whose sixteen vector subcores each run the task on their own sixty-four rows, waits for it, and ends.  The call takes
  the index array, the table and the result whole; the index array and the result are dealt by rows, the table, which
  every subcore reads whole, by read shares; since each subcore brings its rows back holding the picked rows of the
  table, the rows join to the result holding the picked rows everywhere.
-/
import proofs.«215446_g14035953123405_cont_week2b_892_3_alg».proof.Proof.IdealBody

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg1_scv : Memref Cert.KernelIdeal.sig Kind.scVector Space.hbm Cert.KernelIdeal.S1024 EltTy.i32)
local notation "oV" => (Memref.whole Cert.KernelIdeal.main_v1_scv : Memref Cert.KernelIdeal.sig Kind.scVector Space.hbm Cert.KernelIdeal.S1024x128 EltTy.f32)

/-! ## The rows split and join; the shares of the table -/

theorem iRowSet_eq (i : Fin 16) : iRowSet i = (irow i).set := by
  show ((View.whole (main_arg1_scv : Ref sig .scVector)).slice (irow i)).set = _
  rw [View.set_slice]; exact Finset.map_refl
theorem oRowSet_eq (i : Fin 16) : oRowSet i = (orow i).set := by
  show ((View.whole (main_v1_scv : Ref sig .scVector)).slice (orow i)).set = _
  rw [View.set_slice]; exact Finset.map_refl
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
theorem irows_cover : (Finset.univ : Finset (Fin 16)).biUnion iRowSet = Finset.univ :=
  (Finset.biUnion_congr rfl fun i _ => iRowSet_eq i).trans (Rect.biUnion_part idiv)
theorem orows_cover : (Finset.univ : Finset (Fin 16)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun i : Fin 16 => tLoc d ↦{tq i} f :=
  pointsTo_piecesOf Finset.univ f (by decide) fullShare

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) =>
        iprop(iRowPts m d (Fin.cast nSub_zero i) ∗ tShPts m d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ tShPts m d (Fin.cast nSub_zero i) ∗ oRowPts d (Fin.cast nSub_zero i) (GOUT m d)))
          -∗ iprop(iPts m d ∗ tPts m d ∗ oPts d (GOUT m d))))
  rw [bigSep_tasks (F := F) (fun i => iprop(iRowPts m d i ∗ tShPts m d i ∗ oRowPts d i (m (oLoc d)))),
    bigSep_tasks (F := F) (fun i => iprop(iRowPts m d i ∗ tShPts m d i ∗ oRowPts d i (GOUT m d))), bigSep_sep', bigSep_sep', bigSep_sep', bigSep_sep']
  unfold iPts tPts oPts iRowPts tShPts oRowPts
  rw [iPts_rows, tPts_shares, oPts_rows, oPts_rows]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The host reshape of the argument array into the table. -/
abbrev opRs : HloOp τ sig (Elt F) := StableHlo.reshape main_arg0 main_v0 rfl shapeCasts_S1024x200x128_S204800x128

/-- The TensorCore's four arrays, all unscoped. -/
abbrev S4 : Finset (DevRef τ sig) := {a', i', t', o'}

omit [FloatOps F] in
theorem held_S4 (d : Dev nD) (W : Valuation τ sig (Elt F)) :
    (held (T d) S4 W : sProp 𝕄) = iprop((aLoc d ↦{fullShare} W a') ∗ (iLoc d ↦{fullShare} W i') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation, and the valuation after the reshape. -/
def V0 (d : Dev nD) : Valuation τ sig (Elt F) := fun b => m (d, b)
def V1 (d : Dev nD) : Valuation τ sig (Elt F) := (opRs (F := F)).result (V0 m d)

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) :=
  (opRs (F := F)).result_of_not_mem _ (show a' ∉ ({t'} : Finset (DevRef τ sig)) by decide)
theorem V1_i (d : Dev nD) : V1 m d i' = m (iLoc d) :=
  (opRs (F := F)).result_of_not_mem _ (show i' ∉ ({t'} : Finset (DevRef τ sig)) by decide)
theorem V1_o (d : Dev nD) : V1 m d o' = m (oLoc d) :=
  (opRs (F := F)).result_of_not_mem _ (show o' ∉ ({t'} : Finset (DevRef τ sig)) by decide)
theorem V1_t (d : Dev nD) : V1 m d t' = TAB m d := by
  unfold V1 TAB
  exact (StableHlo.reshape_result main_arg0 main_v0 rfl shapeCasts_S1024x200x128_S204800x128 _ _ (V0 m d)).trans rfl

theorem held_V1 (d : Dev nD) :
    (held (T d) S4 ((opRs (F := F)).result (V0 m d)) : sProp 𝕄)
      = iprop((aLoc d ↦{fullShare} m (aLoc d)) ∗ iPts m d ∗ tPts m d ∗ oPts d (m (oLoc d))) := by
  show held (SparseCore.T d) S4 (V1 m d) = _
  rw [held_S4, V1_a, V1_i, V1_t, V1_o]

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (GOUT m d)) :=
  bigSep_univ_of_subsingleton (0 : Fin 1)

theorem hRs : (opRs (F := F)).bufs ⊆ S4 := show ({a', t'} : Finset (DevRef τ sig)) ⊆ S4 by decide

/-- What @main leaves the claim: the two arguments at their launch contents, the result at the picked rows. -/
abbrev FIN (d : Dev nD) : sProp 𝕄 := iprop((aLoc d ↦{fullShare} m (aLoc d)) ∗ iPts m d ∗ oPts d (GOUT m d))

/-- @main on device `d`'s TensorCore: the reshape (over the four arrays held whole), then the call, from the index
    array, the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hi, Ht, Ho⟩
  iapply ((K (F := F)).wp_run (D (F := F)) 𝒱 (EH := EH) (P := P m) κ d 0) $$ [Hst Hi Ht Ho Hb Ha]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, -, Ho⟩
  imodintro
  isplitl [Hst]; · iexact Hst
  isplitl [Ha]; · iexact Ha
  isplitl [Hi]; · iexact Hi
  iexact Ho

def fq (d : Dev nD) (s' : Phys nD τ sig (Elt F)) : Prop :=
  s'.mem.mem (oLoc d) = GOUT m d ∧ s'.mem.mem (aLoc d) = m (aLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := GOUT m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result holds the picked rows of the reshaped argument, the arguments are unchanged. -/
def QC : PUnit × MemSt nD τ sig (Elt F) → Prop := fun r => ∀ c : Dev nD,
  r.2.mem (oLoc c) = GOUT m c ∧ r.2.mem (aLoc c) = m (aLoc c) ∧ r.2.mem (iLoc c) = m (iLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) kfacts v₀
    (fun q hq => match q with | 0 => nomatch hq)
    (fun q _ => match q with | 0 => tileObl m kfacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealTile

end
-- ==== Proof.IdealPre.lean ====
/-
  From the certificate's precondition to what the task asks of the index array.  The precondition's integer part says, as
  one all-reduce by `and`, that every index word `v` has `0 ≤ v` and `v ≤ 199` as signed words; a signed word in that
  range is its own unsigned value, below 200.
-/
import proofs.«215446_g14035953123405_cont_week2b_892_3_alg».proof.Proof.IdealBase
import proofs.«215446_g14035953123405_cont_week2b_892_3_alg».proof.Proof.Gen.Pre_input_domain
import Idealize.ShloMosaic.Lib.ReduceAll
import Idealize.ShloMosaic.Lib.Affine

noncomputable section

namespace Cert.Proof.IdealTile

open Cert.KernelIdeal Cert.KernelIdeal.Gen
open Idealize.ShloMosaic

variable {F : FTy → Type}

/-- A signed word between 0 and 199 is, unsigned, below 200. -/
theorem word_lt (v : BitVec 32) (e : IntOp.andi (IntOp.cmpi .sge v 0#32) (IntOp.cmpi .sle v 199#32) = 1#1) : v.toNat < 200 := by
  obtain ⟨e1, e2⟩ := IntOp.andi_eq_one.1 e
  have h1 := IntOp.cmpi_sge.1 e1
  have h2 := IntOp.cmpi_sle.1 e2
  have z : (0#32 : BitVec 32).toInt = 0 := by decide
  have n : (199#32 : BitVec 32).toInt = 199 := by decide
  rw [z] at h1; rw [n] at h2
  rcases Nat.lt_or_ge (2 * v.toNat) (2 ^ 32) with hc | hc
  · rw [BitVec.toInt_eq_toNat_of_lt hc] at h2; omega
  · rw [BitVec.toInt_eq_toNat_cond, if_neg (by omega)] at h1
    have := v.isLt
    omega

/-- The precondition gives every index word below 200. -/
theorem ok_of_pre [FloatOps F] (m : (ℓ : Loc nD τ sig) → Buf (Elt F) ℓ)
    (h : ∀ c : Dev nD, Cert.Pre_input_domain.fn (F := F) (m (aLoc c)) (m (iLoc c)) = fun _ => 1#1) : PreOK m := by
  intro d j
  have e := congrFun (h d) (fun a => a.elim0)
  dsimp only [Cert.Pre_input_domain.fn] at e
  obtain ⟨-, e9⟩ := IntOp.andi_eq_one.1 e
  haveI : Subsingleton Cert.Pre_input_domain.S_.Idx := ⟨fun a b => funext fun d => d.elim0⟩
  have e8 := Host.reduce_andi_all _ _ _ _ _ e9 j
  simp only [andi, cmpi, broadcastInDim, constantI] at e8
  exact word_lt _ e8

end Cert.Proof.IdealTile

end
-- ==== Proof.BitsBase.lean ====
/-
  The gather kernel's task on one vector subcore, at a symbolic subcore.  Subcore `s` of SparseCore 0 owns rows
  `64 s … 64 s + 63` of the result.  It copies its 64 words of the index array into its list scratch, replaces word
  `k` of the list by `(64 s + k) · 200 + idx[64 s + k]` (four stores of sixteen lanes), gathers the rows of the flat
  table `[204800, 128]` the list names into its row scratch, and copies the row scratch out to its 64 rows of the
  result.  With `0 ≤ idx < 200` every list word is a row of the table, and row `b` of the result ends as row
  `200 b + idx[b]` of the table.
-/
import proofs.«215446_g14035953123405_cont_week2b_892_3_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«215446_g14035953123405_cont_week2b_892_3_alg».proof.Proof.Gen.Kernel
import proofs.«215446_g14035953123405_cont_week2b_892_3_alg».proof.Proof.Gen.Kernel.Skeleton

noncomputable section

namespace Cert.Proof.BitsTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The argument array `[1024, 200, 128]`, the index array `[1024]`, the flat table `[204800, 128]` and the result
    `[1024, 128]`. -/
abbrev aLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "iV" => (Memref.whole Cert.Kernel.main_arg1_scv : Memref Cert.Kernel.sig Kind.scVector Space.hbm Cert.Kernel.S1024 EltTy.i32)
local notation "tV" => (Memref.whole Cert.Kernel.main_v0_scv : Memref Cert.Kernel.sig Kind.scVector Space.hbm Cert.Kernel.S204800x128 EltTy.f32)
local notation "oV" => (Memref.whole Cert.Kernel.main_v1_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S64 EltTy.i32)
local notation "rV" => (Memref.whole Cert.Kernel.cc0_scratch1 : Memref Cert.Kernel.sig Kind.scVector Space.vmem Cert.Kernel.S64x128 EltTy.f32)

/-- Sixteen subcores, sixty-four rows each. -/
theorem idiv : 16 ∣ S1024.size 0 := ⟨64, rfl⟩
theorem odiv : 16 ∣ S1024x128.size 0 := ⟨64, rfl⟩
abbrev irow (i : Fin 16) : Rect S1024 := Rect.part (s := S1024) (a₀ := 0) idiv i
abbrev orow (i : Fin 16) : Rect S1024x128 := Rect.part (s := S1024x128) (a₀ := 0) odiv i
abbrev iRowSet (i : Fin 16) : Finset S1024.Idx := ((iV).view.slice (irow i)).set
abbrev oRowSet (i : Fin 16) : Finset S1024x128.Idx := ((oV).view.slice (orow i)).set

/-- Subcore `i`'s read share of the table: the full share cut into sixteen. -/
abbrev tq (i : Fin 16) : PosShare TreeShare := pieceOf fullShare 16 (by decide) i

/-! ## What the result holds -/

/-- The table the host reshape leaves: the argument array read row-major as `[204800, 128]`. -/
def TAB [FloatOps F] (d : Dev nD) : Buf (Elt F) (tLoc d) :=
  shapeCast S204800x128 (m (aLoc d)) shapeCasts_S1024x200x128_S204800x128

/-- An index of the index array, and an index of the table, from their coordinates. -/
abbrev i1 (b : Fin 1024) : S1024.Idx := fun a => match a with | ⟨0, _⟩ => b
abbrev t2 (r : Fin 204800) (c : Fin 128) : S204800x128.Idx := fun a => match a with | ⟨0, _⟩ => r | ⟨1, _⟩ => c

/-- The table row the result's row `b` is picked from: `200 b + idx[b]` (the index word taken below 200). -/
def pickRow (idx : S1024.Idx → BitVec 32) (b : Fin 1024) : Fin 204800 :=
  ⟨b.val * 200 + (idx (i1 b)).toNat % 200, by
    have h0 : b.val < 1024 := b.isLt
    have h1 := Nat.mod_lt (idx (i1 b)).toNat (show 0 < 200 by decide)
    omega⟩

/-- Row `200 b + idx[b]` of a table, for each row `b` of the result. -/
def pick {E : Type} (tab : S204800x128.Idx → E) (idx : S1024.Idx → BitVec 32) : S1024x128.Idx → E := fun j =>
  tab (t2 (pickRow idx (j 0)) (j 1))

/-- The result array: the picked rows of the reshaped table. -/
def GOUT [FloatOps F] (d : Dev nD) : Buf (Elt F) (oLoc d) := pick (TAB m d) (m (iLoc d))

variable [FloatOps F]

/-! ## What the handshakes carry -/

abbrev iPts (d : Dev nD) : sProp 𝕄 := iLoc d ↦{fullShare} m (iLoc d)
abbrev tPts (d : Dev nD) : sProp 𝕄 := tLoc d ↦{fullShare} TAB m d
abbrev oPts (d : Dev nD) (f : Buf (Elt F) (oLoc d)) : sProp 𝕄 := oLoc d ↦{fullShare} f
abbrev iRowPts (d : Dev nD) (i : Fin 16) : sProp 𝕄 := iLoc d ↦[iRowSet i]{fullShare} m (iLoc d)
abbrev tShPts (d : Dev nD) (i : Fin 16) : sProp 𝕄 := tLoc d ↦{tq i} TAB m d
abbrev oRowPts (d : Dev nD) (i : Fin 16) (f : Buf (Elt F) (oLoc d)) : sProp 𝕄 := oLoc d ↦[oRowSet i]{fullShare} f

/-- The call takes the index array, the table and the result whole; each subcore its sixty-four index words, its
    share of the table and its sixty-four rows of the result, which it brings back holding the picked rows. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (GOUT m d))
  go := fun q d _ i => match q with
    | 0 => iprop(iRowPts m d (Fin.cast nSub_zero i) ∗ tShPts m d (Fin.cast nSub_zero i) ∗ oRowPts d (Fin.cast nSub_zero i) (m (oLoc d)))
  td := fun q d _ i => match q with
    | 0 => iprop(iRowPts m d (Fin.cast nSub_zero i) ∗ tShPts m d (Fin.cast nSub_zero i) ∗ oRowPts d (Fin.cast nSub_zero i) (GOUT m d))
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (GOUT m d)))
  go q d _ i := match q with
    | 0 => (inferInstance : BI.Storable (upEmb : UEmb _ 𝕄)
      iprop(iRowPts m d (Fin.cast nSub_zero i) ∗ tShPts m d (Fin.cast nSub_zero i) ∗ oRowPts d (Fin.cast nSub_zero i) (m (oLoc d))))
  td q d _ i := match q with
    | 0 => (inferInstance : BI.Storable (upEmb : UEmb _ 𝕄)
      iprop(iRowPts m d (Fin.cast nSub_zero i) ∗ tShPts m d (Fin.cast nSub_zero i) ∗ oRowPts d (Fin.cast nSub_zero i) (GOUT m d)))

/-- What the proof asks of the launch memory: every index word is below 200. -/
def PreOK : Prop := ∀ (d : Dev nD) (j : S1024.Idx), (m (iLoc d) j).toNat < 200

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev irowK (L : grid0.Coords) : Rect S1024 := Rect.unit (s := S1024) (k0_off1 L) S64.size (k0_off1_inb L)
abbrev orowK (L : grid0.Coords) : Rect S1024x128 := Rect.unit (s := S1024x128) (k0_off2 L) S64x128.size (k0_off2_inb L)
/-- The subcore's sixty-four index words, its sixty-four rows of the result, and all of the table, as the task
    addresses them. -/
abbrev iRowK (L : grid0.Coords) : Memref sig .scVector .hbm S64 .i32 := (iV).slice (irowK L) (fun _ => rfl)
abbrev oRowK (L : grid0.Coords) : Memref sig .scVector .hbm S64x128 .f32 := (oV).slice (orowK L) (fun _ => rfl)
abbrev tAllK : Memref sig .scVector .hbm S204800x128 .f32 := (tV).slice (Rect.unit (s := S204800x128) ![0, 0] S204800x128.size inb_S204800x128_S204800x128_0_0) (fun _ => rfl)

omit [FloatOps F] in
theorem L0_zero : (L 0).val = 0 := by have := (L 0).isLt; change (L 0).val < 1 at this; omega

omit [FloatOps F] in
theorem irowK_eq : irowK L = irow (jL L) := by
  unfold irowK irow Rect.part Rect.block
  congr 1 <;> funext a
  · rw [k0_off1_eq]
    match a with
    | 0 => simp [Shape.partIx, Shape.partSize, L0_zero L]; try omega
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, L0_zero L]; try omega
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  exact irowK_eq L ▸ rfl
omit [FloatOps F] in
theorem set_oRowK : (oRowK L).view.set = oRowSet (jL L) := by
  show ((oV).view.slice (orowK L)).set = ((oV).view.slice (orow (jL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three DMA semaphores of a vector subcore: the index copy's, the gather's, the copy-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.BitsTile

end
-- ==== Proof.BitsList.lean ====
/-
  The offset list a subcore builds, in closed form.  After the index copy the list scratch holds the subcore's
  sixty-four index words; each of the four sixteen-lane stores replaces lane `y` of chunk `k` by
  `(64 s + 16 k + y) · 200` plus the word it read there.  No product or sum wraps (all are below `204800`), so word `x`
  of the finished list is the number `(64 s + x) · 200 + idx[64 s + x]`: a row of the table, and the row the result's row
  `64 s + x` is picked from.
-/
import proofs.«215446_g14035953123405_cont_week2b_892_3_alg».proof.Proof.BitsBase
import Idealize.ShloMosaic.Lib.Writes
import Idealize.ShloMosaic.Lib.Pipeline.Value

noncomputable section

namespace Cert.Proof.BitsTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S1024 EltTy.i32)
local notation "tV" => (Memref.whole Cert.Kernel.main_v0_scv : Memref Cert.Kernel.sig Kind.scVector Space.hbm Cert.Kernel.S204800x128 EltTy.f32)
local notation "oV" => (Memref.whole Cert.Kernel.main_v1_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S64 EltTy.i32)
local notation "rV" => (Memref.whole Cert.Kernel.cc0_scratch1 : Memref Cert.Kernel.sig Kind.scVector Space.vmem Cert.Kernel.S64x128 EltTy.f32)

variable (m : (ℓ : Loc nD τ sig) → Buf (Elt F) ℓ) [FloatOps F] (d : Dev nD) (L : grid0.Coords)

/-- The four sixteen-lane chunks of the list. -/
abbrev lr0 : Rect S64 := Rect.unit (s := S64) ![0] S16.size inb_S64_S16_0
abbrev lr16 : Rect S64 := Rect.unit (s := S64) ![16] S16.size inb_S64_S16_16
abbrev lr32 : Rect S64 := Rect.unit (s := S64) ![32] S16.size inb_S64_S16_32
abbrev lr48 : Rect S64 := Rect.unit (s := S64) ![48] S16.size inb_S64_S16_48

/-- Word `x` of the subcore's sixty-four index words. -/
def idxWord (x : S64.Idx) : BitVec 32 := m (iLoc d) ((iRowK L).view.emb x)

/-- Word `x` of the finished list. -/
def listWord (x : S64.Idx) : BitVec 32 :=
  BitVec.ofNat 32 ((64 * (L 1).val + (x 0).val) * 200 + (idxWord m d L x).toNat)

omit [FloatOps F] in
theorem L1_lt : (L 1).val < 16 := (L 1).isLt

omit [FloatOps F] in
theorem idxWord_lt (hpre : PreOK m) (x : S64.Idx) : (idxWord m d L x).toNat < 200 := hpre d _

omit [FloatOps F] in
/-- The finished list's word as a number. -/
theorem listWord_toNat (hpre : PreOK m) (x : S64.Idx) :
    (listWord m d L x).toNat = (64 * (L 1).val + (x 0).val) * 200 + (idxWord m d L x).toNat := by
  have h1 := L1_lt L
  have h2 : (x 0).val < 64 := (x 0).isLt
  have h3 := idxWord_lt m d L hpre x
  unfold listWord
  rw [BitVec.toNat_ofNat]
  omega

omit [FloatOps F] in
theorem listWord_inb (hpre : PreOK m) (x : S64.Idx) : (listWord m d L x).toNat < 204800 := by
  have h1 := L1_lt L
  have h2 : (x 0).val < 64 := (x 0).isLt
  have h3 := idxWord_lt m d L hpre x
  rw [listWord_toNat m d L hpre]; omega

/-- The subcore's first row, as the kernel computes it: `64 s`. -/
theorem base_toNat :
    (Scalar.muli (Scalar.addi (Scalar.muli (BitVec.ofNat 32 (L 1).val) 1#32) (BitVec.ofNat 32 (L 0).val)) 64#32).toNat = 64 * (L 1).val := by
  have h1 := L1_lt L
  have h0 := L0_zero L
  simp only [Scalar.muli, Scalar.addi, IntOp.muli, IntOp.addi, h0]
  bv_omega

/-- One store's lane: `(base + c + y) · 200 + w` as a number, when nothing wraps. -/
theorem lane_toNat (base c : BitVec 32) (y w : BitVec 32) (b cn yn : ℕ) (hb : base.toNat = b) (hc : c.toNat = cn) (hy : y.toNat = yn)
    (hbound : (b + cn + yn) * 200 + w.toNat < 2 ^ 32) :
    (((base + c) + y) * 200#32 + w).toNat = (b + cn + yn) * 200 + w.toNat := by
  subst hb hc hy
  bv_omega

/-- The subcore's first row as the kernel's scalar chain spells it. -/
abbrev baseW (L : grid0.Coords) : BitVec 32 :=
  Scalar.muli (Scalar.addi (Scalar.muli (BitVec.ofNat 32 (L 1).val) 1#32) (BitVec.ofNat 32 (L 0).val)) 64#32

/-- Each store's payload, lane by lane: the lane's row number times 200 plus the word loaded there. -/
theorem pay3_apply (v : Vec F S16 .i32) (y : S16.Idx) :
    k0_pay3 (F := F) L v y = ((baseW L + 0#32) + BitVec.ofNat 32 (y 0).val) * 200#32 + v y := by
  unfold k0_pay3
  simp only [shapeCast_self, addi, muli, broadcast, IntOp.addi, IntOp.muli, Scalar.addi]
  rw [iota_single_apply .scVector S16 32 0 _ y]
  try rfl
theorem pay4_apply (v : Vec F S16 .i32) (y : S16.Idx) :
    k0_pay4 (F := F) L v y = ((baseW L + 16#32) + BitVec.ofNat 32 (y 0).val) * 200#32 + v y := by
  unfold k0_pay4
  simp only [shapeCast_self, addi, muli, broadcast, IntOp.addi, IntOp.muli, Scalar.addi]
  rw [iota_single_apply .scVector S16 32 0 _ y]
  try rfl
theorem pay5_apply (v : Vec F S16 .i32) (y : S16.Idx) :
    k0_pay1 (k0_pay5 (F := F) L v) y = ((baseW L + 32#32) + BitVec.ofNat 32 (y 0).val) * 200#32 + v y := by
  unfold k0_pay1 k0_pay5
  simp only [shapeCast_self, addi, muli, broadcast, IntOp.addi, IntOp.muli, Scalar.addi]
  rw [iota_single_apply .scVector S16 32 0 _ y]
  try rfl
theorem pay2_apply (v2 : BitVec 32) (v : Vec F S16 .i32) (y : S16.Idx) :
    k0_pay2 (F := F) v2 v y = ((v2 + 48#32) + BitVec.ofNat 32 (y 0).val) * 200#32 + v y := by
  unfold k0_pay2
  simp only [shapeCast_self, addi, muli, broadcast, IntOp.addi, IntOp.muli, Scalar.addi]
  rw [iota_single_apply .scVector S16 32 0 _ y]
  try rfl

/-- A load of a chunk of the list scratch reads the contents at the chunk's lanes. -/
theorem load_apply (r : Rect S64) (g : (sV).view.ty.Contents (Elt F)) (y : r.shape.Idx) :
    View.readAt (Elt F) (sV).view r.toLoadRect g y = g (r.emb y) := rfl

omit [FloatOps F] in
/-- What the index copy lands in the list scratch: the subcore's index words. -/
theorem landed (fs : (sV).view.ty.Contents (Elt F)) (pay : S64.Idx → Elt F .i32)
    (hpay : pay = (iRowK L).view.read (Elt F) (m (iLoc d))) (x : S64.Idx) :
    View.write (Elt F) (sV).view fs pay Finset.univ x = idxWord m d L x := by
  subst hpay
  rw [View.write_whole_univ]
  exact (View.read_apply _ _).trans (cast_eq _ _)

/-- One lane of one store is the finished list's word there. -/
theorem lane_closed (hpre : PreOK m) (g : (sV).view.ty.Contents (Elt F)) (hg : ∀ x, g x = idxWord m d L x)
    (c : ℕ) (hc : c + 16 ≤ 64) (inb : ∀ a, (![c] : Fin 1 → ℕ) a + S16.size a ≤ S64.size a)
    (base : BitVec 32) (hb : base.toNat = 64 * (L 1).val) (y : S16.Idx) :
    ((base + BitVec.ofNat 32 c) + BitVec.ofNat 32 (y 0).val) * 200#32
        + View.readAt (Elt F) (sV).view (Rect.unit (s := S64) ![c] S16.size inb).toLoadRect g y
      = listWord m d L ((Rect.unit (s := S64) ![c] S16.size inb).emb y) := by
  apply BitVec.eq_of_toNat_eq
  have hy : (y 0).val < 16 := (y 0).isLt
  have h1 := L1_lt L
  have hrd : View.readAt (Elt F) (sV).view (Rect.unit (s := S64) ![c] S16.size inb).toLoadRect g y
      = idxWord m d L ((Rect.unit (s := S64) ![c] S16.size inb).emb y) := hg _
  have hw := idxWord_lt m d L hpre ((Rect.unit (s := S64) ![c] S16.size inb).emb y)
  have he : (((Rect.unit (s := S64) ![c] S16.size inb).emb y) 0).val = c + (y 0).val := by
    rw [Rect.emb_apply]; show c + 1 * (y 0).val = _; omega
  rw [hrd, listWord_toNat m d L hpre, he,
    lane_toNat base (BitVec.ofNat 32 c) (BitVec.ofNat 32 (y 0).val) _ (64 * (L 1).val) c (y 0).val hb
      (by rw [BitVec.toNat_ofNat]; omega) (by rw [BitVec.toNat_ofNat]; omega) (by omega)]
  omega

/-- The list after the four stores, whatever the scratch held before the index copy: word `x` is
    `(64 s + x) · 200 + idx[64 s + x]`. -/
theorem list_closed (hpre : PreOK m) (junk g : (sV).view.ty.Contents (Elt F)) (v2 : BitVec 32) (hv2 : v2.toNat = 64 * (L 1).val)
    (hg : ∀ x, g x = idxWord m d L x) (x : S64.Idx) :
    (sV).view.read (Elt F) ((sV).view.writes (Elt F) junk
      [⟨lr48, k0_pay2 (F := F) v2 (View.readAt (Elt F) (sV).view lr48.toLoadRect g)⟩,
       ⟨lr32, k0_pay1 (k0_pay5 (F := F) L (View.readAt (Elt F) (sV).view lr32.toLoadRect g))⟩,
       ⟨lr16, k0_pay4 (F := F) L (View.readAt (Elt F) (sV).view lr16.toLoadRect g)⟩,
       ⟨lr0, k0_pay3 (F := F) L (View.readAt (Elt F) (sV).view lr0.toLoadRect g)⟩]) x = listWord m d L x := by
  refine View.read_writes_apply_of_pieces (Val := Elt F) (sV).view junk (listWord m d L) _ ?_ x ?_
  swap
  · exact View.cover_of_tiled _ ![16] rfl x
  intro p hp
  simp only [List.mem_cons, List.not_mem_nil, or_false] at hp
  rcases hp with rfl | rfl | rfl | rfl <;> intro y
  · show k0_pay2 (F := F) v2 _ y = _
    rw [pay2_apply]
    exact lane_closed m d L hpre g hg 48 (by decide) inb_S64_S16_48 v2 hv2 y
  · show k0_pay1 (k0_pay5 (F := F) L _) y = _
    rw [pay5_apply]
    exact lane_closed m d L hpre g hg 32 (by decide) inb_S64_S16_32 (baseW L) (base_toNat L) y
  · show k0_pay4 (F := F) L _ y = _
    rw [pay4_apply]
    exact lane_closed m d L hpre g hg 16 (by decide) inb_S64_S16_16 (baseW L) (base_toNat L) y
  · show k0_pay3 (F := F) L _ y = _
    rw [pay3_apply]
    exact lane_closed m d L hpre g hg 0 (by decide) inb_S64_S16_0 (baseW L) (base_toNat L) y

end Cert.Proof.BitsTile

end
-- ==== Proof.BitsValue.lean ====
/-
  What a subcore's rows of the result hold at the end.  Row `z` of the row scratch is the table's row named by word `z` of
  the list, that is row `(64 s + z) · 200 + idx[64 s + z]`; the copy-out puts it at row `64 s + z` of the result; and the
  picked-rows function reads, at row `b = 64 s + z`, row `200 b + idx[b]` of the table: the same row.
-/
import proofs.«215446_g14035953123405_cont_week2b_892_3_alg».proof.Proof.BitsList

noncomputable section

namespace Cert.Proof.BitsTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S1024 EltTy.i32)
local notation "tV" => (Memref.whole Cert.Kernel.main_v0_scv : Memref Cert.Kernel.sig Kind.scVector Space.hbm Cert.Kernel.S204800x128 EltTy.f32)
local notation "oV" => (Memref.whole Cert.Kernel.main_v1_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S64 EltTy.i32)
local notation "rV" => (Memref.whole Cert.Kernel.cc0_scratch1 : Memref Cert.Kernel.sig Kind.scVector Space.vmem Cert.Kernel.S64x128 EltTy.f32)

variable (m : (ℓ : Loc nD τ sig) → Buf (Elt F) ℓ) [FloatOps F] (d : Dev nD) (L : grid0.Coords)

omit [FloatOps F] in
/-- The subcore's first index word and first result row are both row `64 s`. -/
theorem off1_zero : k0_off1 L 0 = 64 * (L 1).val := by
  have h := congrFun (k0_off1_eq L) 0
  have h0 := L0_zero L
  rw [h]; show 64 * (L 1).val + 64 * (L 0).val = _; omega
omit [FloatOps F] in
theorem off2_zero : k0_off2 L 0 = 64 * (L 1).val := by
  have h := congrFun (k0_off2_eq L) 0
  have h0 := L0_zero L
  rw [h]; show 64 * (L 1).val + 64 * (L 0).val = _; omega
omit [FloatOps F] in
theorem off2_one : k0_off2 L 1 = 0 := by
  have h := congrFun (k0_off2_eq L) 1
  rw [h]; rfl

omit [FloatOps F] in
/-- Index word `x` of the subcore is word `64 s + x` of the index array. -/
theorem iRow_emb (x : S64.Idx) (b : Fin 1024) (hb : b.val = 64 * (L 1).val + (x 0).val) : (iRowK L).view.emb x = i1 b := by
  funext a
  match a with
  | ⟨0, _⟩ =>
    apply Fin.ext
    show k0_off1 L 0 + 1 * (x 0).val = b.val
    rw [off1_zero, hb]; omega

/-- The table index the gather reads for element `z` of the row scratch is the one the picked-rows function reads for the
    element of the result the copy-out puts it at. -/
theorem src_idx (hpre : PreOK m) (fo : (sV).view.ty.Contents (Elt F))
    (hfo : ∀ x, (sV).view.read (Elt F) fo x = listWord m d L x)
    (hn : S64.numel = S64x128.size gathers_S204800x128_S64x128.axis')
    (hin : ∀ x, ((sV).view.read (Elt F) fo x).toNat < S204800x128.size gathers_S204800x128_S64x128.axis)
    (z : S64x128.Idx) :
    (tAllK).view.emb (gathers_S204800x128_S64x128.idx (SparseCore.rows ((sV).view.read (Elt F) fo) hn hin) z)
      = t2 (pickRow (m (iLoc d)) (((oRowK L).view.emb z) 0)) (((oRowK L).view.emb z) 1) := by
  have hz0 : (z 0).val < 64 := (z 0).isLt
  have h1 := L1_lt L
  -- the list entry for row `z 0`
  let x : S64.Idx := S64.rowMajor.symm ((z gathers_S204800x128_S64x128.axis').cast hn.symm)
  have hx : (x 0).val = (z 0).val := by
    have := Shape.rowMajor_val_one (d := ![64]) x
    rw [← this]
    show (S64.rowMajor (S64.rowMajor.symm _)).val = _
    rw [Equiv.apply_symm_apply]; rfl
  have hb : (((oRowK L).view.emb z) 0).val = 64 * (L 1).val + (z 0).val := by
    show k0_off2 L 0 + 1 * (z 0).val = _
    rw [off2_zero]; omega
  have hrow : (SparseCore.rows ((sV).view.read (Elt F) fo) hn hin (z gathers_S204800x128_S64x128.axis')).val
      = (64 * (L 1).val + (z 0).val) * 200 + (idxWord m d L x).toNat := by
    show ((sV).view.read (Elt F) fo x).toNat = _
    rw [hfo x, listWord_toNat m d L hpre x, hx]
  have hix : idxWord m d L x = m (iLoc d) (i1 (((oRowK L).view.emb z) 0)) := by
    unfold idxWord
    rw [iRow_emb L x (((oRowK L).view.emb z) 0) (by rw [hb, hx])]
  have hlt := idxWord_lt m d L hpre x
  funext a
  match a with
  | ⟨0, h⟩ =>
    apply Fin.ext
    show 0 + 1 * ((gathers_S204800x128_S64x128.idx (SparseCore.rows ((sV).view.read (Elt F) fo) hn hin) z) ⟨0, h⟩).val = (pickRow (m (iLoc d)) (((oRowK L).view.emb z) 0)).val
    have e := congrArg Fin.val (gathers_S204800x128_S64x128.idx_axis (SparseCore.rows ((sV).view.read (Elt F) fo) hn hin) z)
    have e' : ((gathers_S204800x128_S64x128.idx (SparseCore.rows ((sV).view.read (Elt F) fo) hn hin) z) ⟨0, h⟩).val
        = (SparseCore.rows ((sV).view.read (Elt F) fo) hn hin (z gathers_S204800x128_S64x128.axis')).val := e
    rw [e', hrow]
    show _ = (((oRowK L).view.emb z) 0).val * 200 + (m (iLoc d) (i1 (((oRowK L).view.emb z) 0))).toNat % 200
    rw [hb, ← hix, Nat.mod_eq_of_lt hlt]; omega
  | ⟨1, h⟩ =>
    apply Fin.ext
    show 0 + 1 * ((gathers_S204800x128_S64x128.idx (SparseCore.rows ((sV).view.read (Elt F) fo) hn hin) z) ⟨1, h⟩).val = (((oRowK L).view.emb z) 1).val
    rw [gathers_S204800x128_S64x128.idx_of_ne _ z ⟨1, h⟩ (by show (1 : ℕ) ≠ 0; decide)]
    show 0 + 1 * (z 1).val = k0_off2 L 1 + 1 * (z 1).val
    rw [off2_one]

/-- After the copy-out the subcore's rows of the result hold the picked rows. -/
theorem out_rows (hpre : PreOK m) (fo : (sV).view.ty.Contents (Elt F))
    (hfo : ∀ x, (sV).view.read (Elt F) fo x = listWord m d L x)
    (hn : S64.numel = S64x128.size gathers_S204800x128_S64x128.axis')
    (hin : ∀ x, ((sV).view.read (Elt F) fo x).toNat < S204800x128.size gathers_S204800x128_S64x128.axis)
    (fr : (rV).view.ty.Contents (Elt F)) (f0 : (oRowK L).view.ty.Contents (Elt F)) (pay : S64x128.Idx → Elt F .f32)
    (hpay : pay = (rV).view.read (Elt F) (View.write (Elt F) (rV).view fr
      (SparseCore.gatherPayload gathers_S204800x128_S64x128 (View.read (Elt F) (tAllK).view (TAB m d))
        (SparseCore.rows ((sV).view.read (Elt F) fo) hn hin)) Finset.univ)) :
    ∀ i ∈ (oRowK L).view.set, (oRowK L).view.writes (Elt F) f0 [⟨Rect.whole S64x128, pay⟩] i = GOUT m d i := by
  intro i hi
  obtain ⟨z, -, rfl⟩ := Finset.mem_map.mp hi
  have hw : (oRowK L).view.read (Elt F) ((oRowK L).view.writes (Elt F) f0 [⟨Rect.whole S64x128, pay⟩]) ((Rect.whole S64x128).emb z) = pay z :=
    View.read_writes_cons_emb _ _ _ _ _ _
  rw [Rect.emb_whole_apply] at hw
  have hw' : (oRowK L).view.writes (Elt F) f0 [⟨Rect.whole S64x128, pay⟩] ((oRowK L).view.emb z) = pay z :=
    ((View.read_apply _ _).trans (cast_eq _ _)).symm.trans hw
  rw [hw', hpay]
  show View.read (Elt F) (View.whole cc0_scratch1) (View.write (Elt F) (View.whole cc0_scratch1) fr _ Finset.univ) z = _
  rw [View.write_whole_univ, View.read_whole]
  unfold SparseCore.gatherPayload GOUT pick
  rw [View.read_apply]
  refine (cast_eq _ _).trans ?_
  exact congrArg (TAB m d) (src_idx m d L hpre fo hfo hn hin z)

end Cert.Proof.BitsTile

end
-- ==== Proof.BitsBody.lean ====
/-
  The task's run on a vector subcore: the index copy and its wait, the four loads and stores that finish the list, the
  gather of the listed table rows into the row scratch and its wait, and the copy of the row scratch out to the
  subcore's rows of the result and its wait.  The list's words are rows of the table by the precondition; what the
  rows of the result hold at the end is computed lane by lane from the list's closed form.
-/
import proofs.«215446_g14035953123405_cont_week2b_892_3_alg».proof.Proof.BitsValue

noncomputable section

namespace Cert.Proof.BitsTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S1024 EltTy.i32)
local notation "tV" => (Memref.whole Cert.Kernel.main_v0_scv : Memref Cert.Kernel.sig Kind.scVector Space.hbm Cert.Kernel.S204800x128 EltTy.f32)
local notation "oV" => (Memref.whole Cert.Kernel.main_v1_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S64 EltTy.i32)
local notation "rV" => (Memref.whole Cert.Kernel.cc0_scratch1 : Memref Cert.Kernel.sig Kind.scVector Space.vmem Cert.Kernel.S64x128 EltTy.f32)

variable (m : (ℓ : Loc nD τ sig) → Buf (Elt F) ℓ) [FloatOps F] (d : Dev nD) (L : grid0.Coords)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ tShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tV (Memref.isWhole_whole _) iV (Memref.isWhole_whole _) oV (Memref.isWhole_whole _)
            sV (Memref.isWhole_whole _) rV (Memref.isWhole_whole _) cc0_scratch2 cc0_scoped0 cc0_scoped1)
          fun _ => iprop((iRowPts m d (jL L) ∗ tShPts m d (jL L) ∗ oRowPts d (jL L) (GOUT m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  -- the finished list, in closed form
  have hlist : ∀ x, (sV).view.read (Elt F) ((sV).view.writes (Elt F) (sV).view.junk (tile_body.sl.Hs'_4 m d L fs)) x = listWord m d L x :=
    list_closed m d L hpre _ _ (tile_body.sl.v2 L) (base_toNat L) (landed m d L fs _ rfl)
  have hin : ∀ x, ((sV).view.read (Elt F) ((sV).view.writes (Elt F) (sV).view.junk (tile_body.sl.Hs'_4 m d L fs)) x).toNat
      < S204800x128.size gathers_S204800x128_S64x128.axis := fun x => by
    rw [hlist x]; exact listWord_inb m d L hpre x
  -- the gather: a share of the table, the row scratch, the list's buffer whole, the semaphore at zero
  ihave Hts := (pointsTo_split_subset (q := tq (jL L)) (f := TAB m d) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} (sV).view.writes (Elt F) (sV).view.junk (tile_body.sl.Hs'_4 m d L fs) : sProp 𝕄)
      = (sV).view.loc (V d (cV L) (jV L)) ↦[(sV).view.set]{fullShare} (sV).view.writes (Elt F) (sV).view.junk (tile_body.sl.Hs'_4 m d L fs)
      by rw [hss])) $$ Hs'
  have hN : ∀ h : S204800x128.Gathers 0 S64x128, ∑ j, ((rV).slice (S64x128.rowRect h.axis' j) (S64x128.stride_rowRect h.axis' j)).view.dmaCredit
      = (rV).view.dmaCredit := fun h => SparseCore.sum_rowCredit_eq_dmaCredit (rV) h.axis' (fun _ => rfl)
  iapply (SparseCore.wp_indirectGatherLocal countersEmb 𝒱₀ (V d (cV L) (jV L)) none (hg := gathers_S204800x128_S64x128) (default : HIx 1)
      (rV).view.dmaCredit (hN _) (by decide) hin) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemB, HO⟩
  ihave Ht' := (pointsTo_split_subset (q := tq (jL L)) (f := TAB m d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the subcore's rows of the result hold the picked rows
  ihave Ho2 := (Entails.of_eq (pointsTo_congr (ℓ := (oRowK L).view.loc (V d (cV L) (jV L))) (q := fullShare)
    (out_rows m d L hpre _ hlist _ hin fr (m (oLoc d)) (tile_body.sl.dma0_1 m d L fs fr hin) rfl))) $$ Ho'
  isplitl [Hi' Ht' Ho2]
  · isplitl [Hi']; · iapply (Entails.of_eq (pts_iRowK (F := F) d L _)); iexact Hi'
    isplitl [Ht']; · iexact Ht'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.BitsTile

end
-- ==== Proof.BitsLaunch.lean ====
/-
  The launch of the gather kernel.  The TensorCore reshapes the argument array into the flat table, starts SparseCore 0,
  whose sixteen vector subcores each run the task on their own sixty-four rows, waits for it, and ends.  The call takes
  the index array, the table and the result whole; the index array and the result are dealt by rows, the table, which
  every subcore reads whole, by read shares; since each subcore brings its rows back holding the picked rows of the
  table, the rows join to the result holding the picked rows everywhere.
-/
import proofs.«215446_g14035953123405_cont_week2b_892_3_alg».proof.Proof.BitsBody

noncomputable section

namespace Cert.Proof.BitsTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg1_scv : Memref Cert.Kernel.sig Kind.scVector Space.hbm Cert.Kernel.S1024 EltTy.i32)
local notation "oV" => (Memref.whole Cert.Kernel.main_v1_scv : Memref Cert.Kernel.sig Kind.scVector Space.hbm Cert.Kernel.S1024x128 EltTy.f32)

/-! ## The rows split and join; the shares of the table -/

theorem iRowSet_eq (i : Fin 16) : iRowSet i = (irow i).set := by
  show ((View.whole (main_arg1_scv : Ref sig .scVector)).slice (irow i)).set = _
  rw [View.set_slice]; exact Finset.map_refl
theorem oRowSet_eq (i : Fin 16) : oRowSet i = (orow i).set := by
  show ((View.whole (main_v1_scv : Ref sig .scVector)).slice (orow i)).set = _
  rw [View.set_slice]; exact Finset.map_refl
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
theorem irows_cover : (Finset.univ : Finset (Fin 16)).biUnion iRowSet = Finset.univ :=
  (Finset.biUnion_congr rfl fun i _ => iRowSet_eq i).trans (Rect.biUnion_part idiv)
theorem orows_cover : (Finset.univ : Finset (Fin 16)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun i : Fin 16 => tLoc d ↦{tq i} f :=
  pointsTo_piecesOf Finset.univ f (by decide) fullShare

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) =>
        iprop(iRowPts m d (Fin.cast nSub_zero i) ∗ tShPts m d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ tShPts m d (Fin.cast nSub_zero i) ∗ oRowPts d (Fin.cast nSub_zero i) (GOUT m d)))
          -∗ iprop(iPts m d ∗ tPts m d ∗ oPts d (GOUT m d))))
  rw [bigSep_tasks (F := F) (fun i => iprop(iRowPts m d i ∗ tShPts m d i ∗ oRowPts d i (m (oLoc d)))),
    bigSep_tasks (F := F) (fun i => iprop(iRowPts m d i ∗ tShPts m d i ∗ oRowPts d i (GOUT m d))), bigSep_sep', bigSep_sep', bigSep_sep', bigSep_sep']
  unfold iPts tPts oPts iRowPts tShPts oRowPts
  rw [iPts_rows, tPts_shares, oPts_rows, oPts_rows]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The host reshape of the argument array into the table. -/
abbrev opRs : HloOp τ sig (Elt F) := StableHlo.reshape main_arg0 main_v0 rfl shapeCasts_S1024x200x128_S204800x128

/-- The TensorCore's four arrays, all unscoped. -/
abbrev S4 : Finset (DevRef τ sig) := {a', i', t', o'}

omit [FloatOps F] in
theorem held_S4 (d : Dev nD) (W : Valuation τ sig (Elt F)) :
    (held (T d) S4 W : sProp 𝕄) = iprop((aLoc d ↦{fullShare} W a') ∗ (iLoc d ↦{fullShare} W i') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation, and the valuation after the reshape. -/
def V0 (d : Dev nD) : Valuation τ sig (Elt F) := fun b => m (d, b)
def V1 (d : Dev nD) : Valuation τ sig (Elt F) := (opRs (F := F)).result (V0 m d)

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) :=
  (opRs (F := F)).result_of_not_mem _ (show a' ∉ ({t'} : Finset (DevRef τ sig)) by decide)
theorem V1_i (d : Dev nD) : V1 m d i' = m (iLoc d) :=
  (opRs (F := F)).result_of_not_mem _ (show i' ∉ ({t'} : Finset (DevRef τ sig)) by decide)
theorem V1_o (d : Dev nD) : V1 m d o' = m (oLoc d) :=
  (opRs (F := F)).result_of_not_mem _ (show o' ∉ ({t'} : Finset (DevRef τ sig)) by decide)
theorem V1_t (d : Dev nD) : V1 m d t' = TAB m d := by
  unfold V1 TAB
  exact (StableHlo.reshape_result main_arg0 main_v0 rfl shapeCasts_S1024x200x128_S204800x128 _ _ (V0 m d)).trans rfl

theorem held_V1 (d : Dev nD) :
    (held (T d) S4 ((opRs (F := F)).result (V0 m d)) : sProp 𝕄)
      = iprop((aLoc d ↦{fullShare} m (aLoc d)) ∗ iPts m d ∗ tPts m d ∗ oPts d (m (oLoc d))) := by
  show held (SparseCore.T d) S4 (V1 m d) = _
  rw [held_S4, V1_a, V1_i, V1_t, V1_o]

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (GOUT m d)) :=
  bigSep_univ_of_subsingleton (0 : Fin 1)

theorem hRs : (opRs (F := F)).bufs ⊆ S4 := show ({a', t'} : Finset (DevRef τ sig)) ⊆ S4 by decide

/-- What @main leaves the claim: the two arguments at their launch contents, the result at the picked rows. -/
abbrev FIN (d : Dev nD) : sProp 𝕄 := iprop((aLoc d ↦{fullShare} m (aLoc d)) ∗ iPts m d ∗ oPts d (GOUT m d))

/-- @main on device `d`'s TensorCore: the reshape (over the four arrays held whole), then the call, from the index
    array, the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hi, Ht, Ho⟩
  iapply ((K (F := F)).wp_run (D (F := F)) 𝒱 (EH := EH) (P := P m) κ d 0) $$ [Hst Hi Ht Ho Hb Ha]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, -, Ho⟩
  imodintro
  isplitl [Hst]; · iexact Hst
  isplitl [Ha]; · iexact Ha
  isplitl [Hi]; · iexact Hi
  iexact Ho

def fq (d : Dev nD) (s' : Phys nD τ sig (Elt F)) : Prop :=
  s'.mem.mem (oLoc d) = GOUT m d ∧ s'.mem.mem (aLoc d) = m (aLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := GOUT m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result holds the picked rows of the reshaped argument, the arguments are unchanged. -/
def QC : PUnit × MemSt nD τ sig (Elt F) → Prop := fun r => ∀ c : Dev nD,
  r.2.mem (oLoc c) = GOUT m c ∧ r.2.mem (aLoc c) = m (aLoc c) ∧ r.2.mem (iLoc c) = m (iLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) kfacts v₀
    (fun q hq => match q with | 0 => nomatch hq)
    (fun q _ => match q with | 0 => tileObl m kfacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.BitsTile

end
-- ==== Proof.BitsPre.lean ====
/-
  From the certificate's precondition to what the task asks of the index array.  The precondition's integer part says, as
  one all-reduce by `and`, that every index word `v` has `0 ≤ v` and `v ≤ 199` as signed words; a signed word in that
  range is its own unsigned value, below 200.
-/
import proofs.«215446_g14035953123405_cont_week2b_892_3_alg».proof.Proof.BitsBase
import proofs.«215446_g14035953123405_cont_week2b_892_3_alg».proof.Proof.Gen.Pre_input_domain
import Idealize.ShloMosaic.Lib.ReduceAll
import Idealize.ShloMosaic.Lib.Affine

noncomputable section

namespace Cert.Proof.BitsTile

open Cert.Kernel Cert.Kernel.Gen
open Idealize.ShloMosaic

variable {F : FTy → Type}

/-- A signed word between 0 and 199 is, unsigned, below 200. -/
theorem word_lt (v : BitVec 32) (e : IntOp.andi (IntOp.cmpi .sge v 0#32) (IntOp.cmpi .sle v 199#32) = 1#1) : v.toNat < 200 := by
  obtain ⟨e1, e2⟩ := IntOp.andi_eq_one.1 e
  have h1 := IntOp.cmpi_sge.1 e1
  have h2 := IntOp.cmpi_sle.1 e2
  have z : (0#32 : BitVec 32).toInt = 0 := by decide
  have n : (199#32 : BitVec 32).toInt = 199 := by decide
  rw [z] at h1; rw [n] at h2
  rcases Nat.lt_or_ge (2 * v.toNat) (2 ^ 32) with hc | hc
  · rw [BitVec.toInt_eq_toNat_of_lt hc] at h2; omega
  · rw [BitVec.toInt_eq_toNat_cond, if_neg (by omega)] at h1
    have := v.isLt
    omega

/-- The precondition gives every index word below 200. -/
theorem ok_of_pre [FloatOps F] (m : (ℓ : Loc nD τ sig) → Buf (Elt F) ℓ)
    (h : ∀ c : Dev nD, Cert.Pre_input_domain.fn (F := F) (m (aLoc c)) (m (iLoc c)) = fun _ => 1#1) : PreOK m := by
  intro d j
  have e := congrFun (h d) (fun a => a.elim0)
  dsimp only [Cert.Pre_input_domain.fn] at e
  obtain ⟨-, e9⟩ := IntOp.andi_eq_one.1 e
  haveI : Subsingleton Cert.Pre_input_domain.S_.Idx := ⟨fun a b => funext fun d => d.elim0⟩
  have e8 := Host.reduce_andi_all _ _ _ _ _ e9 j
  simp only [andi, cmpi, broadcastInDim, constantI] at e8
  exact word_lt _ e8

end Cert.Proof.BitsTile

end
-- ==== Proof.RefValue.lean ====
/-
  The reference program's value, read at an index, is the picked row of the reshaped table.

  The reference takes, for each row `b` of the result, the slice `output[b, idx[b], :]` of the argument array
  `[1024, 200, 128]`: it normalises the index word (adds 200 to a negative one), masks the rows whose
  normalised index falls outside `[0, 199]` with a NaN, gathers with the start index clamped into `[0, 199]`, and
  drops the unit axis.  With every index word below 200 the normalisation is the identity, the mask is everywhere
  true, the clamp is the identity, and element `(b, c)` of the result is `output[b, idx[b], c]`.  The flat table
  `[204800, 128]` holds that element at row `200 b + idx[b]`, column `c`.
-/
import proofs.«215446_g14035953123405_cont_week2b_892_3_alg».proof.Proof.Gen.ReferenceIdeal.Read
import proofs.«215446_g14035953123405_cont_week2b_892_3_alg».proof.Proof.IdealBase
import Idealize.ShloMosaic.Lib.ValueIdx
import Idealize.ShloMosaic.Lib.Pipeline.Value
import Idealize.ShloMosaic.PureOps.Reduce

noncomputable section

namespace Cert.Proof.RefValue

open Idealize.ShloMosaic Idealize.ShloMosaic.ValueIdx
open Cert.ReferenceIdeal Cert.ReferenceIdeal.Gen Cert.ReferenceIdeal.Read

variable {F : FTy → Type} [FloatOps F]

/-! ## Words -/

/-- A 32-bit word below 200 read signed is its unsigned value. -/
theorem toInt_of_lt (v : BitVec 32) (h : v.toNat < 200) : v.toInt = (v.toNat : Int) := by
  rw [BitVec.toInt_eq_toNat_cond, if_pos (by omega)]

theorem toInt_toNat_of_lt (v : BitVec 32) (h : v.toNat < 200) : v.toInt.toNat = v.toNat := by
  rw [toInt_of_lt v h]; exact Int.toNat_natCast _

/-- A 32-bit word below 200 is not negative as a signed word. -/
theorem slt_zero_of_lt (v : BitVec 32) (h : v.toNat < 200) : IntOp.cmpi .slt v 0#32 = 0#1 := by
  have hv := toInt_of_lt v h
  have h0 : (0#32 : BitVec 32).toInt = 0 := by decide
  have hb : v.slt 0#32 = false := by
    rw [BitVec.slt_eq_decide, hv, h0]; exact decide_eq_false (by omega)
  show BitVec.ofBool (v.slt 0#32) = 0#1
  rw [hb]; rfl

/-- A 32-bit word below 200 is at least 0 as a signed word. -/
theorem sge_zero_of_lt (v : BitVec 32) (h : v.toNat < 200) : IntOp.cmpi .sge v 0#32 = 1#1 := by
  have hv := toInt_of_lt v h
  have h0 : (0#32 : BitVec 32).toInt = 0 := by decide
  have hb : (0#32 : BitVec 32).sle v = true := by
    rw [BitVec.sle_eq_decide, hv, h0]; exact decide_eq_true (by omega)
  show BitVec.ofBool ((0#32 : BitVec 32).sle v) = 1#1
  rw [hb]; rfl

/-- A 32-bit word below 200 is at most 199 as a signed word. -/
theorem sle_199_of_lt (v : BitVec 32) (h : v.toNat < 200) : IntOp.cmpi .sle v 199#32 = 1#1 := by
  have hv := toInt_of_lt v h
  have h0 : (199#32 : BitVec 32).toInt = 199 := by decide
  have hb : v.sle 199#32 = true := by
    rw [BitVec.sle_eq_decide, hv, h0]; exact decide_eq_true (by omega)
  show BitVec.ofBool (v.sle 199#32) = 1#1
  rw [hb]; rfl

/-! ## A conjunction of true bits is true -/

theorem foldl_andi_one {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-! ## The normalised index and the mask -/

section Stages

variable (x1 : (⟨S1024, .i32⟩ : BufTy).Contents (Elt F)) (h1 : ∀ j, (x1 j).toNat < 200)
include h1

/-- An index word below 200 is not negative, so the normalisation leaves it as it is. -/
theorem v4_apply (i : S1024x1x1.Idx) : val_main_call0_v4 (F := F) x1 i = x1 (idx_main_v0 i) := by
  rw [val_main_call0_v4_apply, val_main_call0_v1_apply, val_main_v0_apply, val_main_call0_v0_apply, val_main_call0_c_apply,
    slt_zero_of_lt _ (h1 _), select_zero]

/-- Every normalised index is within `[0, 199]`. -/
theorem v10_apply (i : S1024x1x1.Idx) : val_main_call0_v10 (F := F) x1 i = 1#1 := by
  rw [val_main_call0_v10_apply, val_main_call0_v6_apply, val_main_call0_v9_apply, v4_apply x1 h1,
    val_main_call0_v5_apply, val_main_call0_c_2_apply, val_main_call0_v8_apply, val_main_call0_v7_apply,
    val_main_call0_c_1_apply, sge_zero_of_lt _ (h1 _), sle_199_of_lt _ (h1 _)]
  rfl

/-- The conjunction over the unit axis of an everywhere-true mask is true. -/
theorem v11_apply (k : S1024x1.Idx) : val_main_call0_v11 (F := F) x1 k = 1#1 := by
  unfold val_main_call0_v11
  rw [Host.reduce_eq_foldl]
  exact foldl_andi_one _ (v10_apply x1 h1) _

end Stages

/-! ## The gather read at an index -/

/-- The gather's dimension numbers: operand `[1024, 200, 128]`, start indices `[1024, 1, 1]`, result `[1024, 1, 128]`;
    axis 0 batches, axis 1 is indexed and collapsed, axis 2 is the slice. -/
abbrev G : GatherDims S1024x200x128 S1024x1x1 S1024x1x128 :=
  gather_S1024x200x128_S1024x1x1_S1024x1x128_2_1_0_0_1_2_11128

/-- The start-indices index `[b, u, 0]` of result index `(b, u, c)`. -/
abbrev sIdx (j : S1024x1x128.Idx) : S1024x1x1.Idx := fun a => match a with
  | ⟨0, _⟩ => ⟨(j 0).val, (j 0).isLt⟩
  | ⟨1, _⟩ => ⟨(j 1).val, (j 1).isLt⟩
  | ⟨2, _⟩ => ⟨0, Nat.one_pos⟩

/-- Operand axis 0 batches: the operand coordinate is the result's. -/
theorem opIdx0 {w : Nat} (idx : IVec S1024x1x1 w) (j : S1024x1x128.Idx) :
    G.start j idx 0 + G.batchCoord j 0 + G.offCoord j 0 = (j 0).val := by
  rw [GatherDims.start_batching G j idx 0 (List.mem_singleton.mpr rfl),
    GatherDims.offCoord_eq_zero G j 0 (fun h => ((GatherDims.mem_sKept G 0).mp h).2 (List.mem_singleton.mpr rfl))]
  simp only [Nat.zero_add, Nat.add_zero]
  unfold GatherDims.batchCoord
  rw [dif_pos (show (0 : Fin 3) ∈ G.operandBatchingDims from List.mem_singleton.mpr rfl)]
  rfl

/-- Operand axis 1 is indexed and collapsed: the operand coordinate is the clamped start index. -/
theorem opIdx1 {w : Nat} (idx : IVec S1024x1x1 w) (j : S1024x1x128.Idx) :
    G.start j idx 1 + G.batchCoord j 1 + G.offCoord j 1 = min (idx (sIdx j)).toInt.toNat 199 := by
  rw [GatherDims.batchCoord_eq_zero G j 1 (by decide),
    GatherDims.offCoord_eq_zero G j 1 (fun h => ((GatherDims.mem_sKept G 1).mp h).1 (List.mem_singleton.mpr rfl))]
  simp only [Nat.add_zero]
  unfold GatherDims.start
  rw [dif_pos (show (1 : Fin 3) ∈ G.startIndexMap from List.mem_singleton.mpr rfl)]
  have hsi : G.siIdx j ⟨List.idxOf (1 : Fin 3) G.startIndexMap,
      List.idxOf_lt_length_iff.2 (List.mem_singleton.mpr rfl)⟩ = sIdx j := by
    funext b; refine Fin.ext ?_
    match b with
    | ⟨0, _⟩ => rfl
    | ⟨1, _⟩ => rfl
    | ⟨2, _⟩ => rfl
  rw [hsi]
  rfl

/-- Operand axis 2 is the slice: the operand coordinate is the result's offset coordinate. -/
theorem opIdx2 {w : Nat} (idx : IVec S1024x1x1 w) (j : S1024x1x128.Idx) :
    G.start j idx 2 + G.batchCoord j 2 + G.offCoord j 2 = (j 2).val := by
  rw [GatherDims.batchCoord_eq_zero G j 2 (by decide)]
  unfold GatherDims.start
  rw [dif_neg (by decide)]
  simp only [Nat.zero_add, Nat.add_zero]
  unfold GatherDims.offCoord
  rw [dif_pos (by decide)]
  rfl

/-- The gather at `(b, u, c)` is the operand at `(b, s, c)`, `s` the start index at `[b, u, 0]` read signed and
    clamped into `[0, 199]`. -/
theorem gather_apply {α : Type} {w : Nat} (x : S1024x200x128.Idx → α) (idx : IVec S1024x1x1 w) (j : S1024x1x128.Idx)
    (k : S1024x200x128.Idx) (hk0 : (k 0).val = (j 0).val)
    (hk1 : (k 1).val = min (idx (sIdx j)).toInt.toNat 199) (hk2 : (k 2).val = (j 2).val) :
    Host.gather G x idx j = x k := by
  unfold Host.gather
  refine congrArg x (funext fun a => Fin.ext ?_)
  match a with
  | ⟨0, _⟩ => exact (opIdx0 idx j).trans hk0.symm
  | ⟨1, _⟩ => exact (opIdx1 idx j).trans hk1.symm
  | ⟨2, _⟩ => exact (opIdx2 idx j).trans hk2.symm

/-! ## The reference's value -/

/-- The argument array's index `(b, w, c)`. -/
abbrev aIdx (b : Fin 1024) (w : Fin 200) (c : Fin 128) : S1024x200x128.Idx := fun a => match a with
  | ⟨0, _⟩ => b
  | ⟨1, _⟩ => w
  | ⟨2, _⟩ => c

/-- With every index word below 200, the reference's result is the picked rows of the argument array read as the flat
    table `[204800, 128]`: both hold `output[b, idx[b], c]` at `(b, c)`. -/
theorem ref_is_pick (x0 : (⟨Cert.ReferenceIdeal.S1024x200x128, .f32⟩ : BufTy).Contents (Elt F))
    (x1 : (⟨Cert.ReferenceIdeal.S1024, .i32⟩ : BufTy).Contents (Elt F))
    (h1 : ∀ j, (x1 j).toNat < 200) :
    Cert.ReferenceIdeal.Read.val_main_v2 (F := F) x0 x1
      = Cert.Proof.IdealTile.pick (shapeCast Cert.KernelIdeal.S204800x128 x0 Cert.KernelIdeal.Gen.shapeCasts_S1024x200x128_S204800x128) x1 := by
  funext j
  have hj0 : (j 0).val < 1024 := (j 0).isLt
  have hj1 : (j 1).val < 128 := (j 1).isLt
  have hw : (x1 (IdealTile.i1 (j 0))).toNat < 200 := h1 _
  -- the start index of row `b` is the index word `idx[b]`
  have hidx : idx_main_v0 (sIdx (idx_main_v2 j)) = IdealTile.i1 (j 0) := by
    funext a
    match a with
    | ⟨0, _⟩ =>
      refine Fin.ext ?_
      show ((((j 0).val * 128 + (j 1).val) / 128) * 1 + 0) * 1 + 0 = (j 0).val
      omega
  -- the gather reads `output[b, idx[b], c]`
  have hL : Host.gather G x0 (val_main_call0_v4 (F := F) x1) (idx_main_v2 j)
      = x0 (aIdx (j 0) ⟨(x1 (IdealTile.i1 (j 0))).toNat, hw⟩ (j 1)) := by
    refine gather_apply x0 _ (idx_main_v2 j) _ ?_ ?_ ?_
    · show (j 0).val = ((j 0).val * 128 + (j 1).val) / 128
      omega
    · show (x1 (IdealTile.i1 (j 0))).toNat
        = min ((val_main_call0_v4 (F := F) x1 (sIdx (idx_main_v2 j))).toInt.toNat) 199
      rw [v4_apply x1 h1, hidx, toInt_toNat_of_lt _ hw]
      exact (Nat.min_eq_left (by omega)).symm
    · show (j 1).val = ((j 0).val * 128 + (j 1).val) % 128
      omega
  -- the flat table holds it at row `200 b + idx[b]`
  have hR : shapeCast Cert.KernelIdeal.S204800x128 x0 Cert.KernelIdeal.Gen.shapeCasts_S1024x200x128_S204800x128
        (IdealTile.t2 (IdealTile.pickRow x1 (j 0)) (j 1))
      = x0 (aIdx (j 0) ⟨(x1 (IdealTile.i1 (j 0))).toNat, hw⟩ (j 1)) := by
    refine shapeCast_apply x0 _ _ _ ?_
    rewrite [Shape.rowMajor_val_three, Shape.rowMajor_val_two]
    show ((j 0).val * 200 + (x1 (IdealTile.i1 (j 0))).toNat) * 128 + (j 1).val
      = ((j 0).val * 200 + (x1 (IdealTile.i1 (j 0))).toNat % 200) * 128 + (j 1).val
    rw [Nat.mod_eq_of_lt hw]
  rw [val_main_v2_apply, val_main_v1_apply, val_main_call0_v13_apply, v11_apply x1 h1, select_one]
  unfold val_main_call0_v12
  exact hL.trans hR.symm

end Cert.Proof.RefValue

end
-- ==== Proof.lean ====
/-
  The certificate of the gather kernel against `take_along_axis`.

  The kernel: the argument array `[1024, 200, 128]` is read as a flat table `[204800, 128]`; sixteen vector subcores each
  take sixty-four rows `b` of the result, form the table row numbers `200 b + idx[b]`, gather those rows and copy them out.
  So row `b` of the result is row `200 b + idx[b]` of the table, which is `output[b, idx[b], :]`.  The reference
  normalises a negative index, gathers `output[b, idx[b], :]` and masks out-of-range indices; for `0 ≤ idx ≤ 199`, the
  certificate's precondition, no index is negative or out of range, and the two results are one function of the arguments.
  Both programs only move data, so the equality needs no arithmetic on the extended reals.

  The three frames are the runs with the values dropped; the idealization rewrote nothing, so `preserves` is trivial.
-/
import proofs.«215446_g14035953123405_cont_week2b_892_3_alg».proof.Defs
import proofs.«215446_g14035953123405_cont_week2b_892_3_alg».proof.Proof.Gen.Kernel
import proofs.«215446_g14035953123405_cont_week2b_892_3_alg».proof.Proof.Gen.Kernel.Skeleton
import proofs.«215446_g14035953123405_cont_week2b_892_3_alg».proof.Proof.Gen.KernelIdeal
import proofs.«215446_g14035953123405_cont_week2b_892_3_alg».proof.Proof.Gen.KernelIdeal.Skeleton
import proofs.«215446_g14035953123405_cont_week2b_892_3_alg».proof.Proof.Gen.ReferenceIdeal
import proofs.«215446_g14035953123405_cont_week2b_892_3_alg».proof.Proof.Gen.Pre_input_domain
import proofs.«215446_g14035953123405_cont_week2b_892_3_alg».proof.Proof.Gen.ReferenceIdeal.Run
import proofs.«215446_g14035953123405_cont_week2b_892_3_alg».proof.Proof.Gen.ReferenceIdeal.Read
import proofs.«215446_g14035953123405_cont_week2b_892_3_alg».proof.Proof.IdealLaunch
import proofs.«215446_g14035953123405_cont_week2b_892_3_alg».proof.Proof.IdealPre
import proofs.«215446_g14035953123405_cont_week2b_892_3_alg».proof.Proof.BitsLaunch
import proofs.«215446_g14035953123405_cont_week2b_892_3_alg».proof.Proof.BitsPre
import proofs.«215446_g14035953123405_cont_week2b_892_3_alg».proof.Proof.RefValue
import Idealize.ShloMosaic.Adequacy
import Idealize.ShloMosaic.Init

noncomputable section

namespace Cert.Proof

open Idealize.ShloMosaic Idealize.SL.Sem

/-- The kernel as printed runs, and its arguments end unchanged. -/
theorem frame_p : Cert.frame_Kernel (hKernel := Cert.Kernel.Gen.facts) (hPre_input_domain := Cert.Pre_input_domain.Gen.facts) := fun m ρ hpre =>
  (θ_run (Cert.Kernel.defs (F := Bits)) _ _).mono (fun _ h c => ⟨(h c).2.1, (h c).2.2⟩)
    (BitsTile.run_main (F := Bits) m ρ (BitsTile.ok_of_pre m hpre))

/-- The idealized kernel runs, and its arguments end unchanged. -/
theorem frame_pi : Cert.frame_KernelIdeal (hKernelIdeal := Cert.KernelIdeal.Gen.facts) (hPre_input_domain := Cert.Pre_input_domain.Gen.facts) := fun m ρ hpre =>
  (θ_run (Cert.KernelIdeal.defs (F := Ideal)) _ _).mono (fun _ h c => ⟨(h c).2.1, (h c).2.2⟩)
    (IdealTile.run_main (F := Ideal) m ρ (IdealTile.ok_of_pre m hpre))

/-- The reference runs, and its arguments end unchanged. -/
theorem frame_ri : Cert.frame_ReferenceIdeal (hReferenceIdeal := Cert.ReferenceIdeal.Gen.facts) (hPre_input_domain := Cert.Pre_input_domain.Gen.facts) := fun m ρ _ =>
  (θ_run (Cert.ReferenceIdeal.defs (F := Ideal)) _ _).mono (fun _ h c => (h c).2) (Cert.ReferenceIdeal.Value.run (F := Ideal) m ρ)

/-- The idealization rewrote nothing. -/
theorem preserves : Cert.preserves_Kernel_KernelIdeal := trivial

/-- From agreeing arguments both programs end with the picked rows: `output[b, idx[b], :]` at row `b`. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have hok := IdealTile.ok_of_pre (F := Ideal) m hpre
  refine ⟨fun c => IdealTile.GOUT m c, IdealTile.run_main (F := Ideal) m ρ hok, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v2_eq, (hagree c).1, (hagree c).2]
  exact Cert.Proof.RefValue.ref_is_pick _ _ (fun j => hok c j)

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
